-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v74)) (v1 : (c : Dev Cert.KernelIdeal.nD) → Buf (Elt Ideal) ((c.tc : Thread Cert.KernelIdeal.nD Cert.KernelIdeal.τ).loc Cert.KernelIdeal.main_v136)) (v2 : (c : Dev Cert.KernelIdeal.nD) → Buf (Elt Ideal) ((c.tc : Thread Cert.KernelIdeal.nD Cert.KernelIdeal.τ).loc Cert.KernelIdeal.main_v178)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_v136) = v1 c
          ∧ r.2.mem ((c.tc : Thread Cert.KernelIdeal.nD Cert.KernelIdeal.τ).loc Cert.KernelIdeal.main_v178) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v136) = v1 c
          ∧ r.2.mem ((c.tc : Thread Cert.ReferenceIdeal.nD Cert.ReferenceIdeal.τ).loc Cert.ReferenceIdeal.main_v185) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S262144 : Shape := ⟨1, ![262144]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_

variable [Facts]

def fn_part4 {F : FTy → Type} [FloatOps F] (main_arg16 : FVec F S128 .f32) (main_arg17 : FVec F S128x128 .f32) (main_arg18 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg17
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  main_v83

def fn_part3 {F : FTy → Type} [FloatOps F] (main_arg13 : FVec F S128x128 .f32) (main_arg14 : FVec F S128 .f32) (main_arg15 : FVec F S64x128 .f32) (main_arg16 : FVec F S128 .f32) (main_arg17 : FVec F S128x128 .f32) (main_arg18 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S64x128 .f32 := Host.absf main_arg15
  let main_cst_24 : FVec F S_ .f32 := constant S_ .f32 0x7F800000#32
  let main_v65 : FVec F S64x128 .f32 := broadcastInDim S64x128 ![] bcast_S_S64x128 main_cst_24
  let main_v66 : IVec S64x128 1 := cmpf .olt main_v64 main_v65
  let main_c_25 : IVec S_ 1 := constantI S_ 1 1#1
  let main_v67 : IVec S_ 1 := (fun x v => Host.reduce IntOp.andi x v reducesTo_S64x128_S_d0_1 h_S_) main_v66 main_c_25
  fn_part4 (F := F) main_arg16 main_arg17 main_arg18 main_v63 main_v67

def fn_part2 {F : FTy → Type} [FloatOps F] (main_arg9 : FVec F S64x128 .f32) (main_arg10 : FVec F S128 .f32) (main_arg11 : FVec F S128x128 .f32) (main_arg12 : FVec F S128 .f32) (main_arg13 : FVec F S128x128 .f32) (main_arg14 : FVec F S128 .f32) (main_arg15 : FVec F S64x128 .f32) (main_arg16 : FVec F S128 .f32) (main_arg17 : FVec F S128x128 .f32) (main_arg18 : FVec F S128 .f32) (main_v33 : IVec S_ 1) : IVec S_ 1 :=
  let main_v34 : FVec F S64x128 .f32 := Host.absf main_arg9
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_v48 main_v49 main_v50

def fn_part1 {F : FTy → Type} [FloatOps F] (main_arg6 : FVec F S128 .f32) (main_arg7 : FVec F S128x64 .f32) (main_arg8 : FVec F S64 .f32) (main_arg9 : FVec F S64x128 .f32) (main_arg10 : FVec F S128 .f32) (main_arg11 : FVec F S128x128 .f32) (main_arg12 : FVec F S128 .f32) (main_arg13 : FVec F S128x128 .f32) (main_arg14 : FVec F S128 .f32) (main_arg15 : FVec F S64x128 .f32) (main_arg16 : FVec F S128 .f32) (main_arg17 : FVec F S128x128 .f32) (main_arg18 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S8192x128 .f32) (main_arg1 : IVec S262144 32) (main_arg2 : IVec S262144 32) (main_arg3 : FVec F S128x128 .f32) (main_arg4 : FVec F S128 .f32) (main_arg5 : FVec F S128x128 .f32) (main_arg6 : FVec F S128 .f32) (main_arg7 : FVec F S128x64 .f32) (main_arg8 : FVec F S64 .f32) (main_arg9 : FVec F S64x128 .f32) (main_arg10 : FVec F S128 .f32) (main_arg11 : FVec F S128x128 .f32) (main_arg12 : FVec F S128 .f32) (main_arg13 : FVec F S128x128 .f32) (main_arg14 : FVec F S128 .f32) (main_arg15 : FVec F S64x128 .f32) (main_arg16 : FVec F S128 .f32) (main_arg17 : FVec F S128x128 .f32) (main_arg18 : FVec F S128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S8192x128 : Shape := ⟨2, ![8192, 128]⟩
abbrev S262144 : Shape := ⟨1, ![262144]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S_ : Shape := ⟨0, ![]⟩
abbrev S8192 : Shape := ⟨1, ![8192]⟩
abbrev S262144x1 : Shape := ⟨2, ![262144, 1]⟩
abbrev S8192x1 : Shape := ⟨2, ![8192, 1]⟩
abbrev S262144x128 : Shape := ⟨2, ![262144, 128]⟩
abbrev S1x128 : Shape := ⟨2, ![1, 128]⟩
abbrev S8192x64 : Shape := ⟨2, ![8192, 64]⟩
abbrev S262144x64 : Shape := ⟨2, ![262144, 64]⟩
abbrev S1x64 : Shape := ⟨2, ![1, 64]⟩
abbrev S8192x8192 : Shape := ⟨2, ![8192, 8192]⟩
abbrev S1024x128 : Shape := ⟨2, ![1024, 128]⟩
abbrev S1024x1024 : Shape := ⟨2, ![1024, 1024]⟩

abbrev nBuf : Space → Nat
  | .hbm => 237
  | .vmem => 6
  | .smem => 0
  | _ => 0

abbrev hbmTy0_0 (i : Nat) : BufTy := match i % 128 with
  | 0 => ⟨S8192x128, .f32⟩
  | 1 => ⟨S262144, .i32⟩
  | 2 => ⟨S262144, .i32⟩
  | 3 => ⟨S128x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S64x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S64x128, .f32⟩
  | 16 => ⟨S128, .f32⟩
  | 17 => ⟨S128x128, .f32⟩
  | 18 => ⟨S128, .f32⟩
  | 19 => ⟨S_, .f32⟩
  | 20 => ⟨S262144, .f32⟩
  | 21 => ⟨S_, .f32⟩
  | 22 => ⟨S8192, .f32⟩
  | 23 => ⟨S262144x1, .i32⟩
  | 24 => ⟨S8192, .f32⟩
  | 25 => ⟨S_, .f32⟩
  | 26 => ⟨S8192, .f32⟩
  | 27 => ⟨S262144x1, .i32⟩
  | 28 => ⟨S8192, .f32⟩
  | 29 => ⟨S_, .f32⟩
  | 30 => ⟨S8192, .f32⟩
  | 31 => ⟨S8192, .f32⟩
  | 32 => ⟨S8192, .f32⟩
  | 33 => ⟨S_, .f32⟩
  | 34 => ⟨S8192, .f32⟩
  | 35 => ⟨S8192, .f32⟩
  | 36 => ⟨S8192, .f32⟩
  | 37 => ⟨S8192x1, .f32⟩
  | 38 => ⟨S8192x128, .f32⟩
  | 39 => ⟨S8192x128, .f32⟩
  | 40 => ⟨S8192x128, .f32⟩
  | 41 => ⟨S_, .i32⟩
  | 42 => ⟨S262144, .i32⟩
  | 43 => ⟨S262144, .i1⟩
  | 44 => ⟨S_, .i32⟩
  | 45 => ⟨S262144, .i32⟩
  | 46 => ⟨S262144, .i32⟩
  | 47 => ⟨S262144, .i32⟩
  | 48 => ⟨S262144x1, .i32⟩
  | 49 => ⟨S262144x128, .f32⟩
  | 50 => ⟨S_, .f32⟩
  | 51 => ⟨S8192x128, .f32⟩
  | 52 => ⟨S262144x1, .i32⟩
  | 53 => ⟨S8192x128, .f32⟩
  | 54 => ⟨S8192x1, .f32⟩
  | 55 => ⟨S8192x128, .f32⟩
  | 56 => ⟨S8192x128, .f32⟩
  | 57 => ⟨S1x128, .f32⟩
  | 58 => ⟨S8192x128, .f32⟩
  | 59 => ⟨S8192x128, .f32⟩
  | 60 => ⟨S_, .f32⟩
  | 61 => ⟨S8192x128, .f32⟩
  | 62 => ⟨S8192x128, .f32⟩
  | 63 => ⟨S8192x1, .f32⟩
  | 64 => ⟨S8192x128, .f32⟩
  | 65 => ⟨S8192x128, .f32⟩
  | 66 => ⟨S8192x128, .f32⟩
  | 67 => ⟨S_, .i32⟩
  | 68 => ⟨S262144, .i32⟩
  | 69 => ⟨S262144, .i1⟩
  | 70 => ⟨S_, .i32⟩
  | 71 => ⟨S262144, .i32⟩
  | 72 => ⟨S262144, .i32⟩
  | 73 => ⟨S262144, .i32⟩
  | 74 => ⟨S262144x1, .i32⟩
  | 75 => ⟨S262144x128, .f32⟩
  | 76 => ⟨S_, .f32⟩
  | 77 => ⟨S8192x128, .f32⟩
  | 78 => ⟨S262144x1, .i32⟩
  | 79 => ⟨S8192x128, .f32⟩
  | 80 => ⟨S8192x1, .f32⟩
  | 81 => ⟨S8192x128, .f32⟩
  | 82 => ⟨S8192x128, .f32⟩
  | 83 => ⟨S1x128, .f32⟩
  | 84 => ⟨S8192x128, .f32⟩
  | 85 => ⟨S8192x128, .f32⟩
  | 86 => ⟨S_, .f32⟩
  | 87 => ⟨S8192x128, .f32⟩
  | 88 => ⟨S8192x128, .f32⟩
  | 89 => ⟨S8192x1, .f32⟩
  | 90 => ⟨S8192x128, .f32⟩
  | 91 => ⟨S8192x128, .f32⟩
  | 92 => ⟨S8192x64, .f32⟩
  | 93 => ⟨S_, .i32⟩
  | 94 => ⟨S262144, .i32⟩
  | 95 => ⟨S262144, .i1⟩
  | 96 => ⟨S_, .i32⟩
  | 97 => ⟨S262144, .i32⟩
  | 98 => ⟨S262144, .i32⟩
  | 99 => ⟨S262144, .i32⟩
  | 100 => ⟨S262144x1, .i32⟩
  | 101 => ⟨S262144x64, .f32⟩
  | 102 => ⟨S_, .f32⟩
  | 103 => ⟨S8192x64, .f32⟩
  | 104 => ⟨S262144x1, .i32⟩
  | 105 => ⟨S8192x64, .f32⟩
  | 106 => ⟨S8192x1, .f32⟩
  | 107 => ⟨S8192x64, .f32⟩
  | 108 => ⟨S8192x64, .f32⟩
  | 109 => ⟨S1x64, .f32⟩
  | 110 => ⟨S8192x64, .f32⟩
  | 111 => ⟨S8192x64, .f32⟩
  | 112 => ⟨S8192x1, .f32⟩
  | 113 => ⟨S8192x64, .f32⟩
  | 114 => ⟨S8192x64, .f32⟩
  | 115 => ⟨S8192x128, .f32⟩
  | 116 => ⟨S_, .i32⟩
  | 117 => ⟨S262144, .i32⟩
  | 118 => ⟨S262144, .i1⟩
  | 119 => ⟨S_, .i32⟩
  | 120 => ⟨S262144, .i32⟩
  | 121 => ⟨S262144, .i32⟩
  | 122 => ⟨S262144, .i32⟩
  | 123 => ⟨S262144x1, .i32⟩
  | 124 => ⟨S262144x128, .f32⟩
  | 125 => ⟨S_, .f32⟩
  | 126 => ⟨S8192x128, .f32⟩
  | 127 => ⟨S262144x1, .i32⟩
  | _ => ⟨S8192x128, .f32⟩

abbrev hbmTy0_1 (i : Nat) : BufTy := match i % 128 with
  | 0 => ⟨S8192x128, .f32⟩
  | 1 => ⟨S8192x1, .f32⟩
  | 2 => ⟨S8192x128, .f32⟩
  | 3 => ⟨S8192x128, .f32⟩
  | 4 => ⟨S1x128, .f32⟩
  | 5 => ⟨S8192x128, .f32⟩
  | 6 => ⟨S8192x128, .f32⟩
  | 7 => ⟨S_, .f32⟩
  | 8 => ⟨S8192x128, .f32⟩
  | 9 => ⟨S8192x128, .f32⟩
  | 10 => ⟨S8192x1, .f32⟩
  | 11 => ⟨S8192x128, .f32⟩
  | 12 => ⟨S8192x128, .f32⟩
  | 13 => ⟨S8192x128, .f32⟩
  | 14 => ⟨S_, .i32⟩
  | 15 => ⟨S262144, .i32⟩
  | 16 => ⟨S262144, .i1⟩
  | 17 => ⟨S_, .i32⟩
  | 18 => ⟨S262144, .i32⟩
  | 19 => ⟨S262144, .i32⟩
  | 20 => ⟨S262144, .i32⟩
  | 21 => ⟨S262144x1, .i32⟩
  | 22 => ⟨S262144x128, .f32⟩
  | 23 => ⟨S_, .f32⟩
  | 24 => ⟨S8192x128, .f32⟩
  | 25 => ⟨S262144x1, .i32⟩
  | 26 => ⟨S8192x128, .f32⟩
  | 27 => ⟨S8192x1, .f32⟩
  | 28 => ⟨S8192x128, .f32⟩
  | 29 => ⟨S8192x128, .f32⟩
  | 30 => ⟨S1x128, .f32⟩
  | 31 => ⟨S8192x128, .f32⟩
  | 32 => ⟨S8192x128, .f32⟩
  | 33 => ⟨S_, .f32⟩
  | 34 => ⟨S8192x128, .f32⟩
  | 35 => ⟨S8192x128, .f32⟩
  | 36 => ⟨S8192x1, .f32⟩
  | 37 => ⟨S8192x128, .f32⟩
  | 38 => ⟨S8192x128, .f32⟩
  | 39 => ⟨S8192x128, .f32⟩
  | 40 => ⟨S_, .i32⟩
  | 41 => ⟨S262144, .i32⟩
  | 42 => ⟨S262144, .i1⟩
  | 43 => ⟨S_, .i32⟩
  | 44 => ⟨S262144, .i32⟩
  | 45 => ⟨S262144, .i32⟩
  | 46 => ⟨S262144, .i32⟩
  | 47 => ⟨S262144x1, .i32⟩
  | 48 => ⟨S262144x128, .f32⟩
  | 49 => ⟨S_, .f32⟩
  | 50 => ⟨S8192x128, .f32⟩
  | 51 => ⟨S262144x1, .i32⟩
  | 52 => ⟨S8192x128, .f32⟩
  | 53 => ⟨S8192x1, .f32⟩
  | 54 => ⟨S8192x128, .f32⟩
  | 55 => ⟨S8192x128, .f32⟩
  | 56 => ⟨S1x128, .f32⟩
  | 57 => ⟨S8192x128, .f32⟩
  | 58 => ⟨S8192x128, .f32⟩
  | 59 => ⟨S8192x1, .f32⟩
  | 60 => ⟨S8192x64, .f32⟩
  | 61 => ⟨S8192x64, .f32⟩
  | 62 => ⟨S8192x128, .f32⟩
  | 63 => ⟨S_, .i32⟩
  | 64 => ⟨S262144, .i32⟩
  | 65 => ⟨S262144, .i1⟩
  | 66 => ⟨S_, .i32⟩
  | 67 => ⟨S262144, .i32⟩
  | 68 => ⟨S262144, .i32⟩
  | 69 => ⟨S262144, .i32⟩
  | 70 => ⟨S262144x1, .i32⟩
  | 71 => ⟨S262144x128, .f32⟩
  | 72 => ⟨S_, .f32⟩
  | 73 => ⟨S8192x128, .f32⟩
  | 74 => ⟨S262144x1, .i32⟩
  | 75 => ⟨S8192x128, .f32⟩
  | 76 => ⟨S8192x1, .f32⟩
  | 77 => ⟨S8192x128, .f32⟩
  | 78 => ⟨S8192x128, .f32⟩
  | 79 => ⟨S1x128, .f32⟩
  | 80 => ⟨S8192x128, .f32⟩
  | 81 => ⟨S8192x128, .f32⟩
  | 82 => ⟨S_, .f32⟩
  | 83 => ⟨S8192x128, .f32⟩
  | 84 => ⟨S8192x128, .f32⟩
  | 85 => ⟨S8192x1, .f32⟩
  | 86 => ⟨S8192x128, .f32⟩
  | 87 => ⟨S8192x128, .f32⟩
  | 88 => ⟨S8192x128, .f32⟩
  | 89 => ⟨S_, .i32⟩
  | 90 => ⟨S262144, .i32⟩
  | 91 => ⟨S262144, .i1⟩
  | 92 => ⟨S_, .i32⟩
  | 93 => ⟨S262144, .i32⟩
  | 94 => ⟨S262144, .i32⟩
  | 95 => ⟨S262144, .i32⟩
  | 96 => ⟨S262144x1, .i32⟩
  | 97 => ⟨S262144x128, .f32⟩
  | 98 => ⟨S_, .f32⟩
  | 99 => ⟨S8192x128, .f32⟩
  | 100 => ⟨S262144x1, .i32⟩
  | 101 => ⟨S8192x128, .f32⟩
  | 102 => ⟨S8192x1, .f32⟩
  | 103 => ⟨S8192x128, .f32⟩
  | 104 => ⟨S8192x128, .f32⟩
  | 105 => ⟨S1x128, .f32⟩
  | 106 => ⟨S8192x128, .f32⟩
  | 107 => ⟨S8192x128, .f32⟩
  | 108 => ⟨S8192x8192, .f32⟩
  | _ => ⟨S8192x128, .f32⟩

abbrev hbmTy (i : Nat) : BufTy := match i / 128 with
  | 0 => hbmTy0_0 i
  | 1 => hbmTy0_1 i
  | _ => ⟨S8192x128, .f32⟩

abbrev bufTy : (tb : Table) → Fin (tcTables nBuf tb) → BufTy
  | .hbm, ⟨i, _⟩ => hbmTy i
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x1024, .f32⟩
  | .local _ .vmem, ⟨5, _⟩ => ⟨S1024x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_cst_0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst_1 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst_2 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_cst_3 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_c : Ref sig .tc := ⟨.hbm, 41, rfl⟩
abbrev main_v17 : Ref sig .tc := ⟨.hbm, 42, rfl⟩
abbrev main_v18 : Ref sig .tc := ⟨.hbm, 43, rfl⟩
abbrev main_c_4 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_5 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_call0_cst : Ref sig .tc := ⟨.hbm, 60, rfl⟩
abbrev main_call0_v0 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_c_6 : Ref sig .tc := ⟨.hbm, 67, rfl⟩
abbrev main_v38 : Ref sig .tc := ⟨.hbm, 68, rfl⟩
abbrev main_v39 : Ref sig .tc := ⟨.hbm, 69, rfl⟩
abbrev main_c_7 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_8 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_call1_cst : Ref sig .tc := ⟨.hbm, 86, rfl⟩
abbrev main_call1_v0 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_c_9 : Ref sig .tc := ⟨.hbm, 93, rfl⟩
abbrev main_v59 : Ref sig .tc := ⟨.hbm, 94, rfl⟩
abbrev main_v60 : Ref sig .tc := ⟨.hbm, 95, rfl⟩
abbrev main_c_10 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_11 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_c_12 : Ref sig .tc := ⟨.hbm, 116, rfl⟩
abbrev main_v79 : Ref sig .tc := ⟨.hbm, 117, rfl⟩
abbrev main_v80 : Ref sig .tc := ⟨.hbm, 118, rfl⟩
abbrev main_c_13 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_cst_14 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_call2_cst : Ref sig .tc := ⟨.hbm, 135, rfl⟩
abbrev main_call2_v0 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_c_15 : Ref sig .tc := ⟨.hbm, 142, rfl⟩
abbrev main_v100 : Ref sig .tc := ⟨.hbm, 143, rfl⟩
abbrev main_v101 : Ref sig .tc := ⟨.hbm, 144, rfl⟩
abbrev main_c_16 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_cst_17 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_call3_cst : Ref sig .tc := ⟨.hbm, 161, rfl⟩
abbrev main_call3_v0 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_c_18 : Ref sig .tc := ⟨.hbm, 168, rfl⟩
abbrev main_v121 : Ref sig .tc := ⟨.hbm, 169, rfl⟩
abbrev main_v122 : Ref sig .tc := ⟨.hbm, 170, rfl⟩
abbrev main_c_19 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_cst_20 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_c_21 : Ref sig .tc := ⟨.hbm, 191, rfl⟩
abbrev main_v141 : Ref sig .tc := ⟨.hbm, 192, rfl⟩
abbrev main_v142 : Ref sig .tc := ⟨.hbm, 193, rfl⟩
abbrev main_c_22 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_cst_23 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_call4_cst : Ref sig .tc := ⟨.hbm, 210, rfl⟩
abbrev main_call4_v0 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_c_24 : Ref sig .tc := ⟨.hbm, 217, rfl⟩
abbrev main_v162 : Ref sig .tc := ⟨.hbm, 218, rfl⟩
abbrev main_v163 : Ref sig .tc := ⟨.hbm, 219, rfl⟩
abbrev main_c_25 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_cst_26 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S262144 : S_.BroadcastsInDim S262144 (![] : Fin 0 → Fin S262144.rank)
  bcast_S_S8192 : S_.BroadcastsInDim S8192 (![] : Fin 0 → Fin S8192.rank)
  bcast_S262144_S262144x1_0 : S262144.BroadcastsInDim S262144x1 (![0] : Fin 1 → Fin S262144x1.rank)
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  bcast_S_S8192x128 : S_.BroadcastsInDim S8192x128 (![] : Fin 0 → Fin S8192x128.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x64 : S_.BroadcastsInDim S8192x64 (![] : Fin 0 → Fin S8192x64.rank)
  bcast_S8192x1_S8192x64_0_1 : S8192x1.BroadcastsInDim S8192x64 (![0, 1] : Fin 2 → Fin S8192x64.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  scatter_S8192_S262144x1_S262144_n_0_0_1_wf : ScatterDims.WF S8192 S262144x1 S262144 [] [0] [0] 1
  dot_S8192x128_S128x128_S8192x128_1_0_0_1_n_n_wf : DotDims.WF S8192x128 S128x128 S8192x128 [1] [0] [0] [1] [] []
  gather_S8192x128_S262144x1_S262144x128_1_0_n_n_0_1_1128_wf : GatherDims.WF S8192x128 S262144x1 S262144x128 [1] [0] [] [0] [] 1 ![1, 128]
  scatter_S8192x128_S262144x1_S262144x128_1_0_0_1_wf : ScatterDims.WF S8192x128 S262144x1 S262144x128 [1] [0] [0] 1
  dot_S8192x128_S128x64_S8192x64_1_0_0_1_n_n_wf : DotDims.WF S8192x128 S128x64 S8192x64 [1] [0] [0] [1] [] []
  gather_S8192x64_S262144x1_S262144x64_1_0_n_n_0_1_164_wf : GatherDims.WF S8192x64 S262144x1 S262144x64 [1] [0] [] [0] [] 1 ![1, 64]
  scatter_S8192x64_S262144x1_S262144x64_1_0_0_1_wf : ScatterDims.WF S8192x64 S262144x1 S262144x64 [1] [0] [0] 1
  dot_S8192x64_S64x128_S8192x128_1_0_0_1_n_n_wf : DotDims.WF S8192x64 S64x128 S8192x128 [1] [0] [0] [1] [] []
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

def scatter_S8192_S262144x1_S262144_n_0_0_1 : ScatterDims S8192 S262144x1 S262144 where
  updateWindowDims := []
  insertedWindowDims := [0]
  scatterDimsToOperandDims := [0]
  indexVectorDim := 1
  wf := scatter_S8192_S262144x1_S262144_n_0_0_1_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def gather_S8192x128_S262144x1_S262144x128_1_0_n_n_0_1_1128 : GatherDims S8192x128 S262144x1 S262144x128 where
  offsetDims := [1]
  collapsedSliceDims := [0]
  operandBatchingDims := []
  startIndicesBatchingDims := []
  startIndexMap := [0]
  indexVectorDim := 1
  sliceSizes := ![1, 128]
  wf := gather_S8192x128_S262144x1_S262144x128_1_0_n_n_0_1_1128_wf
def scatter_S8192x128_S262144x1_S262144x128_1_0_0_1 : ScatterDims S8192x128 S262144x1 S262144x128 where
  updateWindowDims := [1]
  insertedWindowDims := [0]
  scatterDimsToOperandDims := [0]
  indexVectorDim := 1
  wf := scatter_S8192x128_S262144x1_S262144x128_1_0_0_1_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def gather_S8192x64_S262144x1_S262144x64_1_0_n_n_0_1_164 : GatherDims S8192x64 S262144x1 S262144x64 where
  offsetDims := [1]
  collapsedSliceDims := [0]
  operandBatchingDims := []
  startIndicesBatchingDims := []
  startIndexMap := [0]
  indexVectorDim := 1
  sliceSizes := ![1, 64]
  wf := gather_S8192x64_S262144x1_S262144x64_1_0_n_n_0_1_164_wf
def scatter_S8192x64_S262144x1_S262144x64_1_0_0_1 : ScatterDims S8192x64 S262144x1 S262144x64 where
  updateWindowDims := [1]
  insertedWindowDims := [0]
  scatterDimsToOperandDims := [0]
  indexVectorDim := 1
  wf := scatter_S8192x64_S262144x1_S262144x64_1_0_0_1_wf
def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_v177) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v177) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v178) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x128 : Shape := ⟨2, ![8192, 128]⟩
abbrev S262144 : Shape := ⟨1, ![262144]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S_ : Shape := ⟨0, ![]⟩
abbrev S8192 : Shape := ⟨1, ![8192]⟩
abbrev S262144x1 : Shape := ⟨2, ![262144, 1]⟩
abbrev S8192x1 : Shape := ⟨2, ![8192, 1]⟩
abbrev S262144x128 : Shape := ⟨2, ![262144, 128]⟩
abbrev S1x128 : Shape := ⟨2, ![1, 128]⟩
abbrev S8192x64 : Shape := ⟨2, ![8192, 64]⟩
abbrev S262144x64 : Shape := ⟨2, ![262144, 64]⟩
abbrev S1x64 : Shape := ⟨2, ![1, 64]⟩
abbrev S128x8192 : Shape := ⟨2, ![128, 8192]⟩
abbrev S8192x8192 : Shape := ⟨2, ![8192, 8192]⟩

abbrev nBuf : Space → Nat
  | .hbm => 246
  | .vmem => 0
  | .smem => 0
  | _ => 0

abbrev hbmTy0_0 (i : Nat) : BufTy := match i % 128 with
  | 0 => ⟨S8192x128, .f32⟩
  | 1 => ⟨S262144, .i32⟩
  | 2 => ⟨S262144, .i32⟩
  | 3 => ⟨S128x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S64x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S64x128, .f32⟩
  | 16 => ⟨S128, .f32⟩
  | 17 => ⟨S128x128, .f32⟩
  | 18 => ⟨S128, .f32⟩
  | 19 => ⟨S_, .f32⟩
  | 20 => ⟨S262144, .f32⟩
  | 21 => ⟨S_, .f32⟩
  | 22 => ⟨S8192, .f32⟩
  | 23 => ⟨S262144x1, .i32⟩
  | 24 => ⟨S8192, .f32⟩
  | 25 => ⟨S_, .f32⟩
  | 26 => ⟨S8192, .f32⟩
  | 27 => ⟨S262144x1, .i32⟩
  | 28 => ⟨S8192, .f32⟩
  | 29 => ⟨S_, .f32⟩
  | 30 => ⟨S8192, .f32⟩
  | 31 => ⟨S8192, .f32⟩
  | 32 => ⟨S8192, .f32⟩
  | 33 => ⟨S_, .f32⟩
  | 34 => ⟨S8192, .f32⟩
  | 35 => ⟨S8192, .f32⟩
  | 36 => ⟨S8192, .f32⟩
  | 37 => ⟨S8192x1, .f32⟩
  | 38 => ⟨S8192x128, .f32⟩
  | 39 => ⟨S8192x128, .f32⟩
  | 40 => ⟨S8192x128, .f32⟩
  | 41 => ⟨S_, .i32⟩
  | 42 => ⟨S262144, .i32⟩
  | 43 => ⟨S262144, .i1⟩
  | 44 => ⟨S_, .i32⟩
  | 45 => ⟨S262144, .i32⟩
  | 46 => ⟨S262144, .i32⟩
  | 47 => ⟨S262144, .i32⟩
  | 48 => ⟨S262144x1, .i32⟩
  | 49 => ⟨S262144x128, .f32⟩
  | 50 => ⟨S_, .f32⟩
  | 51 => ⟨S8192x128, .f32⟩
  | 52 => ⟨S262144x1, .i32⟩
  | 53 => ⟨S8192x128, .f32⟩
  | 54 => ⟨S8192x1, .f32⟩
  | 55 => ⟨S8192x128, .f32⟩
  | 56 => ⟨S8192x128, .f32⟩
  | 57 => ⟨S1x128, .f32⟩
  | 58 => ⟨S8192x128, .f32⟩
  | 59 => ⟨S8192x128, .f32⟩
  | 60 => ⟨S_, .f32⟩
  | 61 => ⟨S8192x128, .f32⟩
  | 62 => ⟨S8192x128, .f32⟩
  | 63 => ⟨S8192x1, .f32⟩
  | 64 => ⟨S8192x128, .f32⟩
  | 65 => ⟨S8192x128, .f32⟩
  | 66 => ⟨S8192x128, .f32⟩
  | 67 => ⟨S_, .i32⟩
  | 68 => ⟨S262144, .i32⟩
  | 69 => ⟨S262144, .i1⟩
  | 70 => ⟨S_, .i32⟩
  | 71 => ⟨S262144, .i32⟩
  | 72 => ⟨S262144, .i32⟩
  | 73 => ⟨S262144, .i32⟩
  | 74 => ⟨S262144x1, .i32⟩
  | 75 => ⟨S262144x128, .f32⟩
  | 76 => ⟨S_, .f32⟩
  | 77 => ⟨S8192x128, .f32⟩
  | 78 => ⟨S262144x1, .i32⟩
  | 79 => ⟨S8192x128, .f32⟩
  | 80 => ⟨S8192x1, .f32⟩
  | 81 => ⟨S8192x128, .f32⟩
  | 82 => ⟨S8192x128, .f32⟩
  | 83 => ⟨S1x128, .f32⟩
  | 84 => ⟨S8192x128, .f32⟩
  | 85 => ⟨S8192x128, .f32⟩
  | 86 => ⟨S_, .f32⟩
  | 87 => ⟨S8192x128, .f32⟩
  | 88 => ⟨S8192x128, .f32⟩
  | 89 => ⟨S8192x1, .f32⟩
  | 90 => ⟨S8192x128, .f32⟩
  | 91 => ⟨S8192x128, .f32⟩
  | 92 => ⟨S8192x64, .f32⟩
  | 93 => ⟨S_, .i32⟩
  | 94 => ⟨S262144, .i32⟩
  | 95 => ⟨S262144, .i1⟩
  | 96 => ⟨S_, .i32⟩
  | 97 => ⟨S262144, .i32⟩
  | 98 => ⟨S262144, .i32⟩
  | 99 => ⟨S262144, .i32⟩
  | 100 => ⟨S262144x1, .i32⟩
  | 101 => ⟨S262144x64, .f32⟩
  | 102 => ⟨S_, .f32⟩
  | 103 => ⟨S8192x64, .f32⟩
  | 104 => ⟨S262144x1, .i32⟩
  | 105 => ⟨S8192x64, .f32⟩
  | 106 => ⟨S8192x1, .f32⟩
  | 107 => ⟨S8192x64, .f32⟩
  | 108 => ⟨S8192x64, .f32⟩
  | 109 => ⟨S1x64, .f32⟩
  | 110 => ⟨S8192x64, .f32⟩
  | 111 => ⟨S8192x64, .f32⟩
  | 112 => ⟨S8192x1, .f32⟩
  | 113 => ⟨S8192x64, .f32⟩
  | 114 => ⟨S8192x64, .f32⟩
  | 115 => ⟨S8192x128, .f32⟩
  | 116 => ⟨S_, .i32⟩
  | 117 => ⟨S262144, .i32⟩
  | 118 => ⟨S262144, .i1⟩
  | 119 => ⟨S_, .i32⟩
  | 120 => ⟨S262144, .i32⟩
  | 121 => ⟨S262144, .i32⟩
  | 122 => ⟨S262144, .i32⟩
  | 123 => ⟨S262144x1, .i32⟩
  | 124 => ⟨S262144x128, .f32⟩
  | 125 => ⟨S_, .f32⟩
  | 126 => ⟨S8192x128, .f32⟩
  | 127 => ⟨S262144x1, .i32⟩
  | _ => ⟨S8192x128, .f32⟩

abbrev hbmTy0_1 (i : Nat) : BufTy := match i % 128 with
  | 0 => ⟨S8192x128, .f32⟩
  | 1 => ⟨S8192x1, .f32⟩
  | 2 => ⟨S8192x128, .f32⟩
  | 3 => ⟨S8192x128, .f32⟩
  | 4 => ⟨S1x128, .f32⟩
  | 5 => ⟨S8192x128, .f32⟩
  | 6 => ⟨S8192x128, .f32⟩
  | 7 => ⟨S_, .f32⟩
  | 8 => ⟨S8192x128, .f32⟩
  | 9 => ⟨S8192x128, .f32⟩
  | 10 => ⟨S8192x1, .f32⟩
  | 11 => ⟨S8192x128, .f32⟩
  | 12 => ⟨S8192x128, .f32⟩
  | 13 => ⟨S8192x128, .f32⟩
  | 14 => ⟨S_, .i32⟩
  | 15 => ⟨S262144, .i32⟩
  | 16 => ⟨S262144, .i1⟩
  | 17 => ⟨S_, .i32⟩
  | 18 => ⟨S262144, .i32⟩
  | 19 => ⟨S262144, .i32⟩
  | 20 => ⟨S262144, .i32⟩
  | 21 => ⟨S262144x1, .i32⟩
  | 22 => ⟨S262144x128, .f32⟩
  | 23 => ⟨S_, .f32⟩
  | 24 => ⟨S8192x128, .f32⟩
  | 25 => ⟨S262144x1, .i32⟩
  | 26 => ⟨S8192x128, .f32⟩
  | 27 => ⟨S8192x1, .f32⟩
  | 28 => ⟨S8192x128, .f32⟩
  | 29 => ⟨S8192x128, .f32⟩
  | 30 => ⟨S1x128, .f32⟩
  | 31 => ⟨S8192x128, .f32⟩
  | 32 => ⟨S8192x128, .f32⟩
  | 33 => ⟨S_, .f32⟩
  | 34 => ⟨S8192x128, .f32⟩
  | 35 => ⟨S8192x128, .f32⟩
  | 36 => ⟨S8192x1, .f32⟩
  | 37 => ⟨S8192x128, .f32⟩
  | 38 => ⟨S8192x128, .f32⟩
  | 39 => ⟨S8192x128, .f32⟩
  | 40 => ⟨S_, .i32⟩
  | 41 => ⟨S262144, .i32⟩
  | 42 => ⟨S262144, .i1⟩
  | 43 => ⟨S_, .i32⟩
  | 44 => ⟨S262144, .i32⟩
  | 45 => ⟨S262144, .i32⟩
  | 46 => ⟨S262144, .i32⟩
  | 47 => ⟨S262144x1, .i32⟩
  | 48 => ⟨S262144x128, .f32⟩
  | 49 => ⟨S_, .f32⟩
  | 50 => ⟨S8192x128, .f32⟩
  | 51 => ⟨S262144x1, .i32⟩
  | 52 => ⟨S8192x128, .f32⟩
  | 53 => ⟨S8192x1, .f32⟩
  | 54 => ⟨S8192x128, .f32⟩
  | 55 => ⟨S8192x128, .f32⟩
  | 56 => ⟨S1x128, .f32⟩
  | 57 => ⟨S8192x128, .f32⟩
  | 58 => ⟨S8192x128, .f32⟩
  | 59 => ⟨S8192x1, .f32⟩
  | 60 => ⟨S8192x64, .f32⟩
  | 61 => ⟨S8192x64, .f32⟩
  | 62 => ⟨S8192x128, .f32⟩
  | 63 => ⟨S_, .i32⟩
  | 64 => ⟨S262144, .i32⟩
  | 65 => ⟨S262144, .i1⟩
  | 66 => ⟨S_, .i32⟩
  | 67 => ⟨S262144, .i32⟩
  | 68 => ⟨S262144, .i32⟩
  | 69 => ⟨S262144, .i32⟩
  | 70 => ⟨S262144x1, .i32⟩
  | 71 => ⟨S262144x128, .f32⟩
  | 72 => ⟨S_, .f32⟩
  | 73 => ⟨S8192x128, .f32⟩
  | 74 => ⟨S262144x1, .i32⟩
  | 75 => ⟨S8192x128, .f32⟩
  | 76 => ⟨S8192x1, .f32⟩
  | 77 => ⟨S8192x128, .f32⟩
  | 78 => ⟨S8192x128, .f32⟩
  | 79 => ⟨S1x128, .f32⟩
  | 80 => ⟨S8192x128, .f32⟩
  | 81 => ⟨S8192x128, .f32⟩
  | 82 => ⟨S_, .f32⟩
  | 83 => ⟨S8192x128, .f32⟩
  | 84 => ⟨S8192x128, .f32⟩
  | 85 => ⟨S8192x1, .f32⟩
  | 86 => ⟨S8192x128, .f32⟩
  | 87 => ⟨S8192x128, .f32⟩
  | 88 => ⟨S8192x128, .f32⟩
  | 89 => ⟨S_, .i32⟩
  | 90 => ⟨S262144, .i32⟩
  | 91 => ⟨S262144, .i1⟩
  | 92 => ⟨S_, .i32⟩
  | 93 => ⟨S262144, .i32⟩
  | 94 => ⟨S262144, .i32⟩
  | 95 => ⟨S262144, .i32⟩
  | 96 => ⟨S262144x1, .i32⟩
  | 97 => ⟨S262144x128, .f32⟩
  | 98 => ⟨S_, .f32⟩
  | 99 => ⟨S8192x128, .f32⟩
  | 100 => ⟨S262144x1, .i32⟩
  | 101 => ⟨S8192x128, .f32⟩
  | 102 => ⟨S8192x1, .f32⟩
  | 103 => ⟨S8192x128, .f32⟩
  | 104 => ⟨S8192x128, .f32⟩
  | 105 => ⟨S1x128, .f32⟩
  | 106 => ⟨S8192x128, .f32⟩
  | 107 => ⟨S8192x128, .f32⟩
  | 108 => ⟨S128x8192, .f32⟩
  | 109 => ⟨S8192x8192, .f32⟩
  | 110 => ⟨S8192x8192, .f32⟩
  | 111 => ⟨S8192x8192, .f32⟩
  | 112 => ⟨S_, .f32⟩
  | 113 => ⟨S8192x8192, .f32⟩
  | 114 => ⟨S8192x8192, .f32⟩
  | 115 => ⟨S_, .f32⟩
  | 116 => ⟨S8192x8192, .f32⟩
  | 117 => ⟨S8192x8192, .f32⟩
  | _ => ⟨S8192x128, .f32⟩

abbrev hbmTy (i : Nat) : BufTy := match i / 128 with
  | 0 => hbmTy0_0 i
  | 1 => hbmTy0_1 i
  | _ => ⟨S8192x128, .f32⟩

abbrev bufTy : (tb : Table) → Fin (tcTables nBuf tb) → BufTy
  | .hbm, ⟨i, _⟩ => hbmTy i
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_cst_0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst_1 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst_2 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_cst_3 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_c : Ref sig .tc := ⟨.hbm, 41, rfl⟩
abbrev main_v17 : Ref sig .tc := ⟨.hbm, 42, rfl⟩
abbrev main_v18 : Ref sig .tc := ⟨.hbm, 43, rfl⟩
abbrev main_c_4 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_5 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_call0_cst : Ref sig .tc := ⟨.hbm, 60, rfl⟩
abbrev main_call0_v0 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_c_6 : Ref sig .tc := ⟨.hbm, 67, rfl⟩
abbrev main_v38 : Ref sig .tc := ⟨.hbm, 68, rfl⟩
abbrev main_v39 : Ref sig .tc := ⟨.hbm, 69, rfl⟩
abbrev main_c_7 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_8 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_call1_cst : Ref sig .tc := ⟨.hbm, 86, rfl⟩
abbrev main_call1_v0 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_c_9 : Ref sig .tc := ⟨.hbm, 93, rfl⟩
abbrev main_v59 : Ref sig .tc := ⟨.hbm, 94, rfl⟩
abbrev main_v60 : Ref sig .tc := ⟨.hbm, 95, rfl⟩
abbrev main_c_10 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_11 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_c_12 : Ref sig .tc := ⟨.hbm, 116, rfl⟩
abbrev main_v79 : Ref sig .tc := ⟨.hbm, 117, rfl⟩
abbrev main_v80 : Ref sig .tc := ⟨.hbm, 118, rfl⟩
abbrev main_c_13 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_cst_14 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_call2_cst : Ref sig .tc := ⟨.hbm, 135, rfl⟩
abbrev main_call2_v0 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_c_15 : Ref sig .tc := ⟨.hbm, 142, rfl⟩
abbrev main_v100 : Ref sig .tc := ⟨.hbm, 143, rfl⟩
abbrev main_v101 : Ref sig .tc := ⟨.hbm, 144, rfl⟩
abbrev main_c_16 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_cst_17 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_call3_cst : Ref sig .tc := ⟨.hbm, 161, rfl⟩
abbrev main_call3_v0 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_c_18 : Ref sig .tc := ⟨.hbm, 168, rfl⟩
abbrev main_v121 : Ref sig .tc := ⟨.hbm, 169, rfl⟩
abbrev main_v122 : Ref sig .tc := ⟨.hbm, 170, rfl⟩
abbrev main_c_19 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_cst_20 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_c_21 : Ref sig .tc := ⟨.hbm, 191, rfl⟩
abbrev main_v141 : Ref sig .tc := ⟨.hbm, 192, rfl⟩
abbrev main_v142 : Ref sig .tc := ⟨.hbm, 193, rfl⟩
abbrev main_c_22 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_cst_23 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_call4_cst : Ref sig .tc := ⟨.hbm, 210, rfl⟩
abbrev main_call4_v0 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_c_24 : Ref sig .tc := ⟨.hbm, 217, rfl⟩
abbrev main_v162 : Ref sig .tc := ⟨.hbm, 218, rfl⟩
abbrev main_v163 : Ref sig .tc := ⟨.hbm, 219, rfl⟩
abbrev main_c_25 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_cst_26 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_cst_27 : Ref sig .tc := ⟨.hbm, 240, rfl⟩
abbrev main_v182 : Ref sig .tc := ⟨.hbm, 241, rfl⟩
abbrev main_v183 : Ref sig .tc := ⟨.hbm, 242, rfl⟩
abbrev main_cst_28 : Ref sig .tc := ⟨.hbm, 243, rfl⟩
abbrev main_v184 : Ref sig .tc := ⟨.hbm, 244, rfl⟩
abbrev main_v185 : Ref sig .tc := ⟨.hbm, 245, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S_S8192 : S_.BroadcastsInDim S8192 (![] : Fin 0 → Fin S8192.rank)
  bcast_S262144_S262144x1_0 : S262144.BroadcastsInDim S262144x1 (![0] : Fin 1 → Fin S262144x1.rank)
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  bcast_S_S8192x128 : S_.BroadcastsInDim S8192x128 (![] : Fin 0 → Fin S8192x128.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x64 : S_.BroadcastsInDim S8192x64 (![] : Fin 0 → Fin S8192x64.rank)
  bcast_S8192x1_S8192x64_0_1 : S8192x1.BroadcastsInDim S8192x64 (![0, 1] : Fin 2 → Fin S8192x64.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  transposes_S8192x128_S128x8192_1_0 : S8192x128.Transposes [1, 0] S128x8192
  bcast_S_S8192x8192 : S_.BroadcastsInDim S8192x8192 (![] : Fin 0 → Fin S8192x8192.rank)
  scatter_S8192_S262144x1_S262144_n_0_0_1_wf : ScatterDims.WF S8192 S262144x1 S262144 [] [0] [0] 1
  dot_S8192x128_S128x128_S8192x128_1_0_0_1_n_n_wf : DotDims.WF S8192x128 S128x128 S8192x128 [1] [0] [0] [1] [] []
  gather_S8192x128_S262144x1_S262144x128_1_0_n_n_0_1_1128_wf : GatherDims.WF S8192x128 S262144x1 S262144x128 [1] [0] [] [0] [] 1 ![1, 128]
  scatter_S8192x128_S262144x1_S262144x128_1_0_0_1_wf : ScatterDims.WF S8192x128 S262144x1 S262144x128 [1] [0] [0] 1
  dot_S8192x128_S128x64_S8192x64_1_0_0_1_n_n_wf : DotDims.WF S8192x128 S128x64 S8192x64 [1] [0] [0] [1] [] []
  gather_S8192x64_S262144x1_S262144x64_1_0_n_n_0_1_164_wf : GatherDims.WF S8192x64 S262144x1 S262144x64 [1] [0] [] [0] [] 1 ![1, 64]
  scatter_S8192x64_S262144x1_S262144x64_1_0_0_1_wf : ScatterDims.WF S8192x64 S262144x1 S262144x64 [1] [0] [0] 1
  dot_S8192x64_S64x128_S8192x128_1_0_0_1_n_n_wf : DotDims.WF S8192x64 S64x128 S8192x128 [1] [0] [0] [1] [] []
  dot_S8192x128_S128x8192_S8192x8192_1_0_0_1_n_n_wf : DotDims.WF S8192x128 S128x8192 S8192x8192 [1] [0] [0] [1] [] []

variable [Facts₀]

def scatter_S8192_S262144x1_S262144_n_0_0_1 : ScatterDims S8192 S262144x1 S262144 where
  updateWindowDims := []
  insertedWindowDims := [0]
  scatterDimsToOperandDims := [0]
  indexVectorDim := 1
  wf := scatter_S8192_S262144x1_S262144_n_0_0_1_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def gather_S8192x128_S262144x1_S262144x128_1_0_n_n_0_1_1128 : GatherDims S8192x128 S262144x1 S262144x128 where
  offsetDims := [1]
  collapsedSliceDims := [0]
  operandBatchingDims := []
  startIndicesBatchingDims := []
  startIndexMap := [0]
  indexVectorDim := 1
  sliceSizes := ![1, 128]
  wf := gather_S8192x128_S262144x1_S262144x128_1_0_n_n_0_1_1128_wf
def scatter_S8192x128_S262144x1_S262144x128_1_0_0_1 : ScatterDims S8192x128 S262144x1 S262144x128 where
  updateWindowDims := [1]
  insertedWindowDims := [0]
  scatterDimsToOperandDims := [0]
  indexVectorDim := 1
  wf := scatter_S8192x128_S262144x1_S262144x128_1_0_0_1_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def gather_S8192x64_S262144x1_S262144x64_1_0_n_n_0_1_164 : GatherDims S8192x64 S262144x1 S262144x64 where
  offsetDims := [1]
  collapsedSliceDims := [0]
  operandBatchingDims := []
  startIndicesBatchingDims := []
  startIndexMap := [0]
  indexVectorDim := 1
  sliceSizes := ![1, 64]
  wf := gather_S8192x64_S262144x1_S262144x64_1_0_n_n_0_1_164_wf
def scatter_S8192x64_S262144x1_S262144x64_1_0_0_1 : ScatterDims S8192x64 S262144x1 S262144x64 where
  updateWindowDims := [1]
  insertedWindowDims := [0]
  scatterDimsToOperandDims := [0]
  indexVectorDim := 1
  wf := scatter_S8192x64_S262144x1_S262144x64_1_0_0_1_wf
def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.LibWrites.lean ====
/-
  Host operations that write only buffers numbered from `n` on.

  A straight line of host operations each of which writes one result buffer of its own, all of them
  numbered `n` or higher among the TensorCore references, leaves every reference numbered below `n` as
  it found it. With the program's arguments numbered first, this is "no host operation writes an
  argument".
-/
import Idealize.ShloMosaic.Lib.StableHlo.Run

noncomputable section

namespace Idealize.ShloMosaic.StableHlo

open Idealize.ShloMosaic.TcCoe

variable {τ : Topo} {sig : RefSig} {Val : EltTy → Type}

/-- Every buffer the operation writes is a TensorCore reference whose index is at least `n`. -/
def WritesFrom (n : ℕ) (op : HloOp τ sig Val) : Prop :=
  ∀ b ∈ op.writes, ∃ y : Ref sig .tc, b = Proc.devRef .tc y ∧ n ≤ y.idx.val

/-- A line of such operations leaves every reference numbered below `n` as it found it. -/
theorem after_below (n : ℕ) (ops : List (HloOp τ sig Val)) (W : Valuation τ sig Val)
    (h : ops.Forall (WritesFrom n)) (r : Ref sig .tc) (hr : r.idx.val < n) :
    after ops W (Proc.devRef .tc r) = W (Proc.devRef .tc r) :=
  after_of_forall_not_mem ops W fun op hop hb => by
    obtain ⟨y, e, hy⟩ := (List.forall_iff_forall_mem.mp h) op hop _ hb
    obtain rfl : r = y := Proc.devRef_injective _ e
    omega

/-- Any stretch cut from the front or the back of such a line is such a line. -/
theorem WritesFrom.take (n k : ℕ) (ops : List (HloOp τ sig Val)) (h : ops.Forall (WritesFrom n)) :
    (ops.take k).Forall (WritesFrom n) :=
  List.forall_iff_forall_mem.mpr fun op hop => (List.forall_iff_forall_mem.mp h) op (List.mem_of_mem_take hop)

theorem WritesFrom.drop (n k : ℕ) (ops : List (HloOp τ sig Val)) (h : ops.Forall (WritesFrom n)) :
    (ops.drop k).Forall (WritesFrom n) :=
  List.forall_iff_forall_mem.mpr fun op hop => (List.forall_iff_forall_mem.mp h) op (List.mem_of_mem_drop hop)

/-- One operation at a time over a literal line: the buffer written is the operation's own result. -/
macro "writes_own" : tactic =>
  `(tactic| (simp only [List.Forall]; repeat' constructor
             all_goals exact fun b hb => ⟨_, Finset.mem_singleton.mp hb, by decide⟩))

/-- Two lines one after the other. -/
theorem after_two : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_two l₁ l₂]

/-- A line run in two stretches. -/
theorem after_take_drop (k : ℕ) (ops : List (HloOp τ sig Val)) (W : Valuation τ sig Val) :
    after ops W = after (ops.drop k) (after (ops.take k) W) := by
  rw [← after_two, List.take_append_drop]

end Idealize.ShloMosaic.StableHlo

end
-- ==== Proof.LibStretches.lean ====
/-
  A property of every element of every list of a family holds of every element of the lists laid end to end.
  Used for a program's host operations given as several stretches: a fact checked stretch by stretch is a fact
  of the whole line.
-/
import Mathlib.Data.List.Basic

namespace List

/-- If each list of the family satisfies `p` throughout, so does their concatenation. -/
theorem forall_flatten_of_forall {α : Type _} {p : α → Prop} (L : List (List α))
    (h : L.Forall fun l => l.Forall p) : L.flatten.Forall p :=
  List.forall_iff_forall_mem.mpr fun x hx => by
    obtain ⟨l, hl, hxl⟩ := List.mem_flatten.mp hx
    exact List.forall_iff_forall_mem.mp (List.forall_iff_forall_mem.mp h l hl) x hxl

end List
-- ==== Proof.KBitsHost.lean ====
/-
  The host side of the program before its one kernel call: eleven stretches of StableHLO operations (the
  graph-convolution layers; each `relu` call is a stretch of its own). What every buffer holds when the
  kernel is entered is the fold of these operations over the launch contents; no operation writes an
  argument array, so the kernel finds the arguments as launched.
-/
import proofs.«109616_j8753143349903_1_alg».proof.Proof.Gen.Kernel.Launch
import proofs.«109616_j8753143349903_1_alg».proof.Proof.Gen.Kernel.Skeleton
import proofs.«109616_j8753143349903_1_alg».proof.Proof.Gen.Kernel.Points
import proofs.«109616_j8753143349903_1_alg».proof.Proof.LibWrites
import proofs.«109616_j8753143349903_1_alg».proof.Proof.LibStretches
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The operations before the kernel call -/

/-- The host operations before the kernel call, stretch by stretch, in program order. -/
abbrev hostAll : List (List (HloOp τ sig (Elt F))) :=
  [hostOps0, hostOps0_1, hostOps0_2, hostOps0_3, hostOps0_4, hostOps0_5, hostOps0_6, hostOps0_7, hostOps0_8,
    hostOps0_9, hostOps0_10]

/-- Core `c`'s TensorCore buffers when the kernel is entered: the launch contents after all the host operations. -/
def V (c : Dev nD) (b : Ref sig .tc) : Buf (Elt F) ((c : Thread nD τ).loc b) :=
  StableHlo.after (hostAll (F := F)).flatten (fun b => m (c, b)) b

theorem hostAll_sub : (hostAll (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub,
    hostOps0_7_sub, hostOps0_8_sub, hostOps0_9_sub, hostOps0_10_sub⟩

theorem fresh0 : (hostOps0 : List (HloOp τ sig (Elt F))).Forall fun op => op.fresh = ∅ := by
  simp only [List.Forall]; repeat' constructor
theorem fresh1 : (hostOps0_1 : List (HloOp τ sig (Elt F))).Forall fun op => op.fresh = ∅ := by
  simp only [List.Forall]; repeat' constructor
theorem fresh2 : (hostOps0_2 : List (HloOp τ sig (Elt F))).Forall fun op => op.fresh = ∅ := by
  simp only [List.Forall]; repeat' constructor
theorem fresh3 : (hostOps0_3 : List (HloOp τ sig (Elt F))).Forall fun op => op.fresh = ∅ := by
  simp only [List.Forall]; repeat' constructor
theorem fresh4 : (hostOps0_4 : List (HloOp τ sig (Elt F))).Forall fun op => op.fresh = ∅ := by
  simp only [List.Forall]; repeat' constructor
theorem fresh5 : (hostOps0_5 : List (HloOp τ sig (Elt F))).Forall fun op => op.fresh = ∅ := by
  simp only [List.Forall]; repeat' constructor
theorem fresh6 : (hostOps0_6 : List (HloOp τ sig (Elt F))).Forall fun op => op.fresh = ∅ := by
  simp only [List.Forall]; repeat' constructor
theorem fresh7 : (hostOps0_7 : List (HloOp τ sig (Elt F))).Forall fun op => op.fresh = ∅ := by
  simp only [List.Forall]; repeat' constructor
theorem fresh8 : (hostOps0_8 : List (HloOp τ sig (Elt F))).Forall fun op => op.fresh = ∅ := by
  simp only [List.Forall]; repeat' constructor
theorem fresh9 : (hostOps0_9 : List (HloOp τ sig (Elt F))).Forall fun op => op.fresh = ∅ := by
  simp only [List.Forall]; repeat' constructor
theorem fresh10 : (hostOps0_10 : List (HloOp τ sig (Elt F))).Forall fun op => op.fresh = ∅ := by
  simp only [List.Forall]; repeat' constructor

theorem hostAll_fresh : (hostAll (F := F)).Forall fun ops => ops.Forall fun op => op.fresh = ∅ :=
  ⟨fresh0, fresh1, fresh2, fresh3, fresh4, fresh5, fresh6, fresh7, fresh8, fresh9, fresh10⟩

/-- The program up to the kernel call: holding the unscoped buffers at the launch contents it reaches the call
    holding them at `V`. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefixes cfgs 0 defs₀ 𝒱₀ m main hostAll hostAll_sub hostAll_fresh (fun c => (main_chain c).trans rfl)

/-! ## No host operation writes an argument

The nineteen arguments are the references numbered 0 … 18; every host operation writes one result buffer of its
own, numbered 19 or higher. -/

theorem writes0 : (hostOps0 : List (HloOp τ sig (Elt F))).Forall (StableHlo.WritesFrom 19) := by writes_own
theorem writes1 : (hostOps0_1 : List (HloOp τ sig (Elt F))).Forall (StableHlo.WritesFrom 19) := by writes_own
theorem writes2 : (hostOps0_2 : List (HloOp τ sig (Elt F))).Forall (StableHlo.WritesFrom 19) := by writes_own
theorem writes3 : (hostOps0_3 : List (HloOp τ sig (Elt F))).Forall (StableHlo.WritesFrom 19) := by writes_own
theorem writes4 : (hostOps0_4 : List (HloOp τ sig (Elt F))).Forall (StableHlo.WritesFrom 19) := by writes_own
theorem writes5 : (hostOps0_5 : List (HloOp τ sig (Elt F))).Forall (StableHlo.WritesFrom 19) := by writes_own
theorem writes6 : (hostOps0_6 : List (HloOp τ sig (Elt F))).Forall (StableHlo.WritesFrom 19) := by writes_own
theorem writes7 : (hostOps0_7 : List (HloOp τ sig (Elt F))).Forall (StableHlo.WritesFrom 19) := by writes_own
theorem writes8 : (hostOps0_8 : List (HloOp τ sig (Elt F))).Forall (StableHlo.WritesFrom 19) := by writes_own
theorem writes9 : (hostOps0_9 : List (HloOp τ sig (Elt F))).Forall (StableHlo.WritesFrom 19) := by writes_own
theorem writes10 : (hostOps0_10 : List (HloOp τ sig (Elt F))).Forall (StableHlo.WritesFrom 19) := by writes_own

theorem hostAll_writes : ((hostAll (F := F)).flatten).Forall (StableHlo.WritesFrom 19) :=
  List.forall_flatten_of_forall _
    ⟨writes0, writes1, writes2, writes3, writes4, writes5, writes6, writes7, writes8, writes9, writes10⟩

/-- The kernel finds every argument array as launched. -/
theorem V_arg (c : Dev nD) (r : Ref sig .tc) (hr : r.idx.val < 19) : V m c r = m ((c : Thread nD τ).loc r) :=
  StableHlo.after_below 19 _ _ hostAll_writes r hr

end Cert.Kernel.Hand

end
-- ==== Proof.KBitsBody.lean ====
/-
  The kernel call. The grid has 8 × 8 points; at point (i, j) the body reads rows 1024·i … of the node
  embedding through one window and rows 1024·j … of the SAME array through a second window, and stores the
  1024 × 1024 tile (i, j) of the result. The two reading windows hold the array at complementary half shares.
  This file states what the body leaves in the result's staging buffer, runs the body, and launches the
  pipeline: every execution of the program terminates, the result array ends at the tiles written back one
  by one, and every other buffer ends as the kernel found it.
-/
import proofs.«109616_j8753143349903_1_alg».proof.Proof.KBitsHost

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- A reading window's current staging buffer holds its block at every point, whether the point fetched it or an
    earlier one did (the block index has not moved since). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the result's buffer -/

/-- The whole 1024 × 128 block and the whole 1024 × 1024 tile, as rectangles. -/
abbrev rIn : Rect S1024x128 := Rect.unit (s := S1024x128) ![0, 0] S1024x128.size inb_S1024x128_S1024x128_0_0
abbrev rOut : Rect S1024x1024 := Rect.unit (s := S1024x1024) ![0, 0] S1024x1024.size inb_S1024x1024_S1024x1024_0_0

/-- The result's staging buffer after the body: its one store, of the body's value of the two blocks read. -/
def out0_2 (x0 : Vec F S1024x128 .f32) (x1 : Vec F S1024x128 .f32) : Vec F S1024x1024 .f32 :=
  View.canon [⟨rOut, k0_pay1 (View.ld x0 rIn) (View.ld x1 rIn)⟩]

/-- The one store covers the buffer. -/
theorem cover0_2 (p0 : Vec F S1024x1024 .f32) (y : S1024x1024.Idx) :
    ∃ pc ∈ ([⟨rOut, p0⟩] : List (View.Piece (Elt F) S1024x1024 .f32)), y ∈ pc.1.set :=
  View.cover_of_tiled [⟨rOut, p0⟩] S1024x1024.size (by rfl) y

/-! ## The body's triple -/

set_option maxHeartbeats 1000000 in
/-- The body on whole staging buffers, the two it reads at contents `x0`, `x1` and the result's at anything, runs to
    the end holding the first two as they were and the result's at `out0_2 x0 x1`. -/
theorem sound_kernel (c : Dev nD) (E : Set ℕ) (i : grid0.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole)
    (x0 : Vec F S1024x128 .f32) (x1 : Vec F S1024x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__decode_kernel i arg2 harg2 arg3 harg3 arg4 harg4) K := by
  simp only [cc0__decode_kernel_eq_skeleton]; unfold cc0__decode_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data on core `c`: the arrays as the kernel finds them; after the body at point `t` each reading window's
    buffer at its block and the result's at `out0_2` of the two blocks; the invariant the core's scoped buffers that
    are no staging buffer (there is nothing in them the body uses); nothing owed; the shared array's full share dealt
    in halves to the two windows that read it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KBitsLaunch.lean ====
/-
  The launch of the kernel call. The node-embedding array is handed to the pipeline once and read by two windows:
  its full share is split in two halves, one per window; the result array goes to the third window whole. With
  the body obligation of the previous file this gives the run of the whole program: it terminates, the windows'
  arrays end at the pipeline's account of the write-backs, and every buffer that is no window's array ends as the
  kernel found it — in particular the nineteen arguments, which no host operation writes either.
-/
import proofs.«109616_j8753143349903_1_alg».proof.Proof.KBitsBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The shares -/

theorem share0 (c : Dev nD) : (dats m 0 c).share 0 = fullShare.left := by
  unfold Dat.share; rw [if_neg (by decide)]; dsimp only [dats]
theorem share1 (c : Dev nD) : (dats m 0 c).share 1 = fullShare.right := by
  unfold Dat.share; rw [if_neg (by decide)]; dsimp only [dats]
theorem share2 (c : Dev nD) : (dats m 0 c).share 2 = fullShare := by
  unfold Dat.share; rw [if_pos (by decide)]

/-- The buffers behind the windows' arrays, each held whole, are the pipeline's three arrays at entry: the
    embedding array's full share is its two halves. -/
theorem hsplit (c : Dev nD) :
    (Pipeline.arrBufs spec0 c (V m c) : sProp 𝕄) ⊢ (dats m 0 c).arrays ((dats m 0 c).arrAt · 0) := by
  have s0 : (cfg0.win 0).arr.view.set = Finset.univ := (arr_whole0 0).set_eq_univ
  have s2 : (cfg0.win 2).arr.view.set = Finset.univ := (arr_whole0 2).set_eq_univ
  unfold Pipeline.arrBufs Dat.arrays
  rw [show (Finset.univ.image (Pipeline.arrRef spec0)) = {main_v177, main_v178} from by decide,
    BI.bigSep_insert (by decide), BI.bigSep_singleton, bigSep_W0]
  rw [s0, s2, share0, share1, share2]
  refine (show _ ⊢ iprop((((c.tc : Thread nD τ).loc main_v177) ↦{fullShare} V m c main_v177) ∗ (((c.tc : Thread nD τ).loc main_v178) ↦{fullShare} V m c main_v178)) from .rfl).trans ?_
  iintro ⟨H7, H8⟩
  ihave H7' := (pointsTo_share (PosShare.mem_left_op_right fullShare)).1 $$ H7
  icases H7' with ⟨Hl, Hr⟩
  isplitl [Hl]; · iexact Hl
  isplitl [Hr]; · iexact Hr
  iexact H8

/-! ## The run -/

set_option backward.isDefEq.respectTransparency.types false in
/-- From any memory with zero counters every weakly fair execution of the program terminates, and at the end each
    window's array holds what the write-backs made of it and every other unscoped buffer what the kernel found. -/
theorem run_main : θ_run defs (onTc (τ := τ) (main (F := F))) (s₀ m ρ) (Pipeline.FramePost cfgs (dats m) 0 (V m)) := by
  refine Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj))
    (hu₀ := .rfl)
    (V := V m) (hmain := ?hm)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      show _ ⊢ Pipeline.scopedRest (Ix := Unit) (Name := ℕ) (U := UR sig nD τ) (Lvl := ℕ) (Val := Elt F) spec0 c
      iintro ⟨-, H⟩
      iexact H)
    (hout := fun c => by
      show Pipeline.scopedRest (Ix := Unit) (Name := ℕ) (U := UR sig nD τ) (Lvl := ℕ) (Val := Elt F) spec0 c ⊢ _
      iintro H
      isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)
  case hm =>
    intro c Q
    have hh := hmain (F := F) m Variants.none c Q
    convert hh using 3

/-- An argument array ends as launched: it is no window's array, so the kernel call leaves it as it found it, and
    no host operation wrote it. -/
theorem arg_kept {r : PUnit × MemSt nD τ sig (Elt F)} (h : Pipeline.FramePost cfgs (dats m) 0 (V m) r) (c : Dev nD)
    (b : Ref sig .tc) (hs : b.isScoped = false) (hb : ∀ w : Fin (cfgs 0).W, ((cfgs 0).spec w).arr.view.ref ≠ b) (hr : b.idx.val < 19) :
    r.2.mem ((c.tc : Thread nD τ).loc b) = m ((c.tc : Thread nD τ).loc b) :=
  ((h c).2 b (Pipeline.mem_restRefs_of b hs hb)).trans (V_arg m c b hr)

end Cert.Kernel.Hand

end
-- ==== Proof.KIdealHost.lean ====
/-
  The host side of the program before its one kernel call: eleven stretches of StableHLO operations (the
  graph-convolution layers; each `relu` call is a stretch of its own). What every buffer holds when the
  kernel is entered is the fold of these operations over the launch contents; no operation writes an
  argument array, so the kernel finds the arguments as launched.
-/
import proofs.«109616_j8753143349903_1_alg».proof.Proof.Gen.KernelIdeal.Launch
import proofs.«109616_j8753143349903_1_alg».proof.Proof.Gen.KernelIdeal.Skeleton
import proofs.«109616_j8753143349903_1_alg».proof.Proof.Gen.KernelIdeal.Points
import proofs.«109616_j8753143349903_1_alg».proof.Proof.LibWrites
import proofs.«109616_j8753143349903_1_alg».proof.Proof.LibStretches
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The operations before the kernel call -/

/-- The host operations before the kernel call, stretch by stretch, in program order. -/
abbrev hostAll : List (List (HloOp τ sig (Elt F))) :=
  [hostOps0, hostOps0_1, hostOps0_2, hostOps0_3, hostOps0_4, hostOps0_5, hostOps0_6, hostOps0_7, hostOps0_8,
    hostOps0_9, hostOps0_10]

/-- Core `c`'s TensorCore buffers when the kernel is entered: the launch contents after all the host operations. -/
def V (c : Dev nD) (b : Ref sig .tc) : Buf (Elt F) ((c : Thread nD τ).loc b) :=
  StableHlo.after (hostAll (F := F)).flatten (fun b => m (c, b)) b

theorem hostAll_sub : (hostAll (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub,
    hostOps0_7_sub, hostOps0_8_sub, hostOps0_9_sub, hostOps0_10_sub⟩

theorem fresh0 : (hostOps0 : List (HloOp τ sig (Elt F))).Forall fun op => op.fresh = ∅ := by
  simp only [List.Forall]; repeat' constructor
theorem fresh1 : (hostOps0_1 : List (HloOp τ sig (Elt F))).Forall fun op => op.fresh = ∅ := by
  simp only [List.Forall]; repeat' constructor
theorem fresh2 : (hostOps0_2 : List (HloOp τ sig (Elt F))).Forall fun op => op.fresh = ∅ := by
  simp only [List.Forall]; repeat' constructor
theorem fresh3 : (hostOps0_3 : List (HloOp τ sig (Elt F))).Forall fun op => op.fresh = ∅ := by
  simp only [List.Forall]; repeat' constructor
theorem fresh4 : (hostOps0_4 : List (HloOp τ sig (Elt F))).Forall fun op => op.fresh = ∅ := by
  simp only [List.Forall]; repeat' constructor
theorem fresh5 : (hostOps0_5 : List (HloOp τ sig (Elt F))).Forall fun op => op.fresh = ∅ := by
  simp only [List.Forall]; repeat' constructor
theorem fresh6 : (hostOps0_6 : List (HloOp τ sig (Elt F))).Forall fun op => op.fresh = ∅ := by
  simp only [List.Forall]; repeat' constructor
theorem fresh7 : (hostOps0_7 : List (HloOp τ sig (Elt F))).Forall fun op => op.fresh = ∅ := by
  simp only [List.Forall]; repeat' constructor
theorem fresh8 : (hostOps0_8 : List (HloOp τ sig (Elt F))).Forall fun op => op.fresh = ∅ := by
  simp only [List.Forall]; repeat' constructor
theorem fresh9 : (hostOps0_9 : List (HloOp τ sig (Elt F))).Forall fun op => op.fresh = ∅ := by
  simp only [List.Forall]; repeat' constructor
theorem fresh10 : (hostOps0_10 : List (HloOp τ sig (Elt F))).Forall fun op => op.fresh = ∅ := by
  simp only [List.Forall]; repeat' constructor

theorem hostAll_fresh : (hostAll (F := F)).Forall fun ops => ops.Forall fun op => op.fresh = ∅ :=
  ⟨fresh0, fresh1, fresh2, fresh3, fresh4, fresh5, fresh6, fresh7, fresh8, fresh9, fresh10⟩

/-- The program up to the kernel call: holding the unscoped buffers at the launch contents it reaches the call
    holding them at `V`. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefixes cfgs 0 defs₀ 𝒱₀ m main hostAll hostAll_sub hostAll_fresh (fun c => (main_chain c).trans rfl)

/-! ## No host operation writes an argument

The nineteen arguments are the references numbered 0 … 18; every host operation writes one result buffer of its
own, numbered 19 or higher. -/

theorem writes0 : (hostOps0 : List (HloOp τ sig (Elt F))).Forall (StableHlo.WritesFrom 19) := by writes_own
theorem writes1 : (hostOps0_1 : List (HloOp τ sig (Elt F))).Forall (StableHlo.WritesFrom 19) := by writes_own
theorem writes2 : (hostOps0_2 : List (HloOp τ sig (Elt F))).Forall (StableHlo.WritesFrom 19) := by writes_own
theorem writes3 : (hostOps0_3 : List (HloOp τ sig (Elt F))).Forall (StableHlo.WritesFrom 19) := by writes_own
theorem writes4 : (hostOps0_4 : List (HloOp τ sig (Elt F))).Forall (StableHlo.WritesFrom 19) := by writes_own
theorem writes5 : (hostOps0_5 : List (HloOp τ sig (Elt F))).Forall (StableHlo.WritesFrom 19) := by writes_own
theorem writes6 : (hostOps0_6 : List (HloOp τ sig (Elt F))).Forall (StableHlo.WritesFrom 19) := by writes_own
theorem writes7 : (hostOps0_7 : List (HloOp τ sig (Elt F))).Forall (StableHlo.WritesFrom 19) := by writes_own
theorem writes8 : (hostOps0_8 : List (HloOp τ sig (Elt F))).Forall (StableHlo.WritesFrom 19) := by writes_own
theorem writes9 : (hostOps0_9 : List (HloOp τ sig (Elt F))).Forall (StableHlo.WritesFrom 19) := by writes_own
theorem writes10 : (hostOps0_10 : List (HloOp τ sig (Elt F))).Forall (StableHlo.WritesFrom 19) := by writes_own

theorem hostAll_writes : ((hostAll (F := F)).flatten).Forall (StableHlo.WritesFrom 19) :=
  List.forall_flatten_of_forall _
    ⟨writes0, writes1, writes2, writes3, writes4, writes5, writes6, writes7, writes8, writes9, writes10⟩

/-- The kernel finds every argument array as launched. -/
theorem V_arg (c : Dev nD) (r : Ref sig .tc) (hr : r.idx.val < 19) : V m c r = m ((c : Thread nD τ).loc r) :=
  StableHlo.after_below 19 _ _ hostAll_writes r hr

end Cert.KernelIdeal.Hand

end
-- ==== Proof.KIdealBody.lean ====
/-
  The kernel call. The grid has 8 × 8 points; at point (i, j) the body reads rows 1024·i … of the node
  embedding through one window and rows 1024·j … of the SAME array through a second window, and stores the
  1024 × 1024 tile (i, j) of the result. The two reading windows hold the array at complementary half shares.
  This file states what the body leaves in the result's staging buffer, runs the body, and launches the
  pipeline: every execution of the program terminates, the result array ends at the tiles written back one
  by one, and every other buffer ends as the kernel found it.
-/
import proofs.«109616_j8753143349903_1_alg».proof.Proof.KIdealHost

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- A reading window's current staging buffer holds its block at every point, whether the point fetched it or an
    earlier one did (the block index has not moved since). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the result's buffer -/

/-- The whole 1024 × 128 block and the whole 1024 × 1024 tile, as rectangles. -/
abbrev rIn : Rect S1024x128 := Rect.unit (s := S1024x128) ![0, 0] S1024x128.size inb_S1024x128_S1024x128_0_0
abbrev rOut : Rect S1024x1024 := Rect.unit (s := S1024x1024) ![0, 0] S1024x1024.size inb_S1024x1024_S1024x1024_0_0

/-- The result's staging buffer after the body: its one store, of the body's value of the two blocks read. -/
def out0_2 (x0 : Vec F S1024x128 .f32) (x1 : Vec F S1024x128 .f32) : Vec F S1024x1024 .f32 :=
  View.canon [⟨rOut, k0_pay1 (View.ld x0 rIn) (View.ld x1 rIn)⟩]

/-- The one store covers the buffer. -/
theorem cover0_2 (p0 : Vec F S1024x1024 .f32) (y : S1024x1024.Idx) :
    ∃ pc ∈ ([⟨rOut, p0⟩] : List (View.Piece (Elt F) S1024x1024 .f32)), y ∈ pc.1.set :=
  View.cover_of_tiled [⟨rOut, p0⟩] S1024x1024.size (by rfl) y

/-! ## The body's triple -/

set_option maxHeartbeats 1000000 in
/-- The body on whole staging buffers, the two it reads at contents `x0`, `x1` and the result's at anything, runs to
    the end holding the first two as they were and the result's at `out0_2 x0 x1`. -/
theorem sound_kernel (c : Dev nD) (E : Set ℕ) (i : grid0.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole)
    (x0 : Vec F S1024x128 .f32) (x1 : Vec F S1024x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__decode_kernel i arg2 harg2 arg3 harg3 arg4 harg4) K := by
  simp only [cc0__decode_kernel_eq_skeleton]; unfold cc0__decode_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data on core `c`: the arrays as the kernel finds them; after the body at point `t` each reading window's
    buffer at its block and the result's at `out0_2` of the two blocks; the invariant the core's scoped buffers that
    are no staging buffer (there is nothing in them the body uses); nothing owed; the shared array's full share dealt
    in halves to the two windows that read it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KIdealLaunch.lean ====
/-
  The launch of the kernel call. The node-embedding array is handed to the pipeline once and read by two windows:
  its full share is split in two halves, one per window; the result array goes to the third window whole. With
  the body obligation of the previous file this gives the run of the whole program: it terminates, the windows'
  arrays end at the pipeline's account of the write-backs, and every buffer that is no window's array ends as the
  kernel found it — in particular the nineteen arguments, which no host operation writes either.
-/
import proofs.«109616_j8753143349903_1_alg».proof.Proof.KIdealBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The shares -/

theorem share0 (c : Dev nD) : (dats m 0 c).share 0 = fullShare.left := by
  unfold Dat.share; rw [if_neg (by decide)]; dsimp only [dats]
theorem share1 (c : Dev nD) : (dats m 0 c).share 1 = fullShare.right := by
  unfold Dat.share; rw [if_neg (by decide)]; dsimp only [dats]
theorem share2 (c : Dev nD) : (dats m 0 c).share 2 = fullShare := by
  unfold Dat.share; rw [if_pos (by decide)]

/-- The buffers behind the windows' arrays, each held whole, are the pipeline's three arrays at entry: the
    embedding array's full share is its two halves. -/
theorem hsplit (c : Dev nD) :
    (Pipeline.arrBufs spec0 c (V m c) : sProp 𝕄) ⊢ (dats m 0 c).arrays ((dats m 0 c).arrAt · 0) := by
  have s0 : (cfg0.win 0).arr.view.set = Finset.univ := (arr_whole0 0).set_eq_univ
  have s2 : (cfg0.win 2).arr.view.set = Finset.univ := (arr_whole0 2).set_eq_univ
  unfold Pipeline.arrBufs Dat.arrays
  rw [show (Finset.univ.image (Pipeline.arrRef spec0)) = {main_v177, main_v178} from by decide,
    BI.bigSep_insert (by decide), BI.bigSep_singleton, bigSep_W0]
  rw [s0, s2, share0, share1, share2]
  refine (show _ ⊢ iprop((((c.tc : Thread nD τ).loc main_v177) ↦{fullShare} V m c main_v177) ∗ (((c.tc : Thread nD τ).loc main_v178) ↦{fullShare} V m c main_v178)) from .rfl).trans ?_
  iintro ⟨H7, H8⟩
  ihave H7' := (pointsTo_share (PosShare.mem_left_op_right fullShare)).1 $$ H7
  icases H7' with ⟨Hl, Hr⟩
  isplitl [Hl]; · iexact Hl
  isplitl [Hr]; · iexact Hr
  iexact H8

/-! ## The run -/

set_option backward.isDefEq.respectTransparency.types false in
/-- From any memory with zero counters every weakly fair execution of the program terminates, and at the end each
    window's array holds what the write-backs made of it and every other unscoped buffer what the kernel found. -/
theorem run_main : θ_run defs (onTc (τ := τ) (main (F := F))) (s₀ m ρ) (Pipeline.FramePost cfgs (dats m) 0 (V m)) := by
  refine Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj))
    (hu₀ := .rfl)
    (V := V m) (hmain := ?hm)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      show _ ⊢ Pipeline.scopedRest (Ix := Unit) (Name := ℕ) (U := UR sig nD τ) (Lvl := ℕ) (Val := Elt F) spec0 c
      iintro ⟨-, H⟩
      iexact H)
    (hout := fun c => by
      show Pipeline.scopedRest (Ix := Unit) (Name := ℕ) (U := UR sig nD τ) (Lvl := ℕ) (Val := Elt F) spec0 c ⊢ _
      iintro H
      isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)
  case hm =>
    intro c Q
    have hh := hmain (F := F) m Variants.none c Q
    convert hh using 3

/-- An argument array ends as launched: it is no window's array, so the kernel call leaves it as it found it, and
    no host operation wrote it. -/
theorem arg_kept {r : PUnit × MemSt nD τ sig (Elt F)} (h : Pipeline.FramePost cfgs (dats m) 0 (V m) r) (c : Dev nD)
    (b : Ref sig .tc) (hs : b.isScoped = false) (hb : ∀ w : Fin (cfgs 0).W, ((cfgs 0).spec w).arr.view.ref ≠ b) (hr : b.idx.val < 19) :
    r.2.mem ((c.tc : Thread nD τ).loc b) = m ((c.tc : Thread nD τ).loc b) :=
  ((h c).2 b (Pipeline.mem_restRefs_of b hs hb)).trans (V_arg m c b hr)

end Cert.KernelIdeal.Hand

end
-- ==== Proof.LibContract.lean ====
/-
  A matrix unit's product over ONE contracted axis, read at an output position.

  At the exact instance a product into a zero accumulator is the sum, over the contraction's index type, of
  the products of the operands at the positions the dimension record assigns. When the contraction has one
  axis of extent `K`, that index type is `Fin K` up to a bijection, and the sum can be written over `Fin K`
  with the two operand positions named as functions of `k` — whatever axes the record contracts.
-/
import Idealize.ShloMosaic.Lib.ValueIdx
import Idealize.ShloMosaic.PureOps.Ideal.Laws

noncomputable section

namespace Cert.LibContract

open Idealize.ShloMosaic Idealize.ShloMosaic.ValueIdx

/-- A product into the zero accumulator, contracted over one axis of extent `K`, at the output position `j`:
    the sum over `k : Fin K` of the left operand at `li k` times the right operand at `ri k`, where `li`, `ri` are
    the positions the dimension record gives for the `k`-th contracted coordinate. -/
theorem matmul_zero_entry {sl sr so : Shape} {φ₁ φ₂ : FTy} (d : DotDims sl sr so) (prec : Option ContractPrecision) (K : ℕ)
    (hr : d.contr.rank = 1) (hs : d.contr.size ⟨0, by omega⟩ = K)
    (l : FVec Ideal sl φ₁) (r : FVec Ideal sr φ₂) (j : so.Idx) (li : Fin K → sl.Idx) (ri : Fin K → sr.Idx)
    (hl : ∀ k, d.lhsIdx j ((contrEquiv1 d K hr hs).symm k) = li k)
    (hr' : ∀ k, d.rhsIdx j ((contrEquiv1 d K hr hs).symm k) = ri k) :
    FloatOps.matmul d prec l r (constant (F := Ideal) so .f32 0x00000000#32) j = ∑ k : Fin K, l (li k) * r (ri k) := by
  rw [Ideal.matmul_constant_zero_apply, ← Equiv.sum_comp (contrEquiv1 d K hr hs).symm]
  exact Finset.sum_congr rfl fun k _ => by rw [hl k, hr' k]

end Cert.LibContract

end
-- ==== Proof.DecodeSpec.lean ====
/-
  The inner-product decode, as a function on extended reals.

  For an 8192 × 128 array `Z` (one 128-vector per node), the decoded adjacency is the 8192 × 8192 array
      adj Z (r, c) = σ(∑ₖ Z(r, k) · Z(c, k)),      σ x = 1 / (1 + e⁻ˣ)
  (`Ideal.logistic`: the quotient and the exponential are the extended reals' own, so σ(⊥) = 0 and σ(⊤) = 1).
  Both programs compute this function of the same `Z`.
-/
import Idealize.ShloMosaic.PureOps.Ideal
import Idealize.ShloMosaic.Lib.ValueIdx

noncomputable section

namespace Cert.Decode

open Idealize.ShloMosaic

/-- The embedding's shape and the adjacency's. -/
abbrev SZ : Shape := ⟨2, ![8192, 128]⟩
abbrev SA : Shape := ⟨2, ![8192, 8192]⟩

/-- Row `r`, column `k` of the embedding. -/
abbrev rowZ (r : Fin 8192) (k : Fin 128) : SZ.Idx := fun a => match a with
  | ⟨0, _⟩ => ⟨r.val, r.isLt⟩
  | ⟨1, _⟩ => ⟨k.val, k.isLt⟩

/-- Entry (r, c) of the decoded adjacency: the logistic function of the inner product of rows `r` and `c`. -/
def adj (Z : SZ.Idx → EReal) : SA.Idx → EReal := fun i =>
  Ideal.logistic (∑ k : Fin 128, Z (rowZ ⟨(i 0).val, (i 0).isLt⟩ k) * Z (rowZ ⟨(i 1).val, (i 1).isLt⟩ k))

end Cert.Decode

end
-- ==== Proof.KIdealValue.lean ====
/-
  The kernel's result as one function of the node embedding.

  With `Z` the 8192 × 128 node embedding the kernel is handed, the result is the 8192 × 8192 array
      adj Z (r, c) = σ(∑ₖ Z(r, k) · Z(c, k)),      σ x = 1 / (1 + e⁻ˣ),
  over the extended reals. Grid point (i, j) computes the 1024 × 1024 tile whose rows are rows 1024·i … of `Z`
  and whose columns are rows 1024·j … of `Z` (the change of float format before the product is the identity on
  extended reals, and the product runs into a zero accumulator); the 64 tiles cover the array.
-/
import proofs.«109616_j8753143349903_1_alg».proof.Proof.KIdealLaunch
import proofs.«109616_j8753143349903_1_alg».proof.Proof.LibContract
import proofs.«109616_j8753143349903_1_alg».proof.Proof.DecodeSpec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Cert.Decode (rowZ adj)

/-- Row `r`, column `k` of a 1024 × 128 block. -/
abbrev rowB (r : Fin 1024) (k : Fin 128) : S1024x128.Idx := fun a => match a with
  | ⟨0, _⟩ => ⟨r.val, r.isLt⟩
  | ⟨1, _⟩ => ⟨k.val, k.isLt⟩

/-! ## The body's value at an entry of the tile -/

theorem lhs_0 (j : S1024x1024.Idx) (q : dot_S1024x128_S1024x128_S1024x1024_1_1_0_0_n_n.contr.Idx) :
    (dot_S1024x128_S1024x128_S1024x1024_1_1_0_0_n_n.lhsIdx j q 0).val = (j 0).val := by
  unfold DotDims.lhsIdx
  rw [dif_neg (show ¬(0 : Fin S1024x128.rank) ∈ dot_S1024x128_S1024x128_S1024x1024_1_1_0_0_n_n.lhsBatch by decide), dif_pos (show (0 : Fin S1024x128.rank) ∈ dot_S1024x128_S1024x128_S1024x1024_1_1_0_0_n_n.lhsNonContracting by decide)]
  rfl
theorem lhs_1 (j : S1024x1024.Idx) (q : dot_S1024x128_S1024x128_S1024x1024_1_1_0_0_n_n.contr.Idx) :
    (dot_S1024x128_S1024x128_S1024x1024_1_1_0_0_n_n.lhsIdx j q 1).val = (q ⟨0, by decide⟩).val :=
  dot_S1024x128_S1024x128_S1024x1024_1_1_0_0_n_n.lhsIdx_val_of_single rfl j q
theorem rhs_0 (j : S1024x1024.Idx) (q : dot_S1024x128_S1024x128_S1024x1024_1_1_0_0_n_n.contr.Idx) :
    (dot_S1024x128_S1024x128_S1024x1024_1_1_0_0_n_n.rhsIdx j q 0).val = (j 1).val := by
  unfold DotDims.rhsIdx
  rw [dif_neg (show ¬(0 : Fin S1024x128.rank) ∈ dot_S1024x128_S1024x128_S1024x1024_1_1_0_0_n_n.rhsBatch by decide), dif_pos (show (0 : Fin S1024x128.rank) ∈ dot_S1024x128_S1024x128_S1024x1024_1_1_0_0_n_n.rhsNonContracting by decide)]
  rfl
theorem rhs_1 (j : S1024x1024.Idx) (q : dot_S1024x128_S1024x128_S1024x1024_1_1_0_0_n_n.contr.Idx) :
    (dot_S1024x128_S1024x128_S1024x1024_1_1_0_0_n_n.rhsIdx j q 1).val = (q ⟨0, by decide⟩).val :=
  dot_S1024x128_S1024x128_S1024x1024_1_1_0_0_n_n.rhsIdx_val_of_single rfl j q

/-- The body's value of two blocks at entry `j` of the tile: the logistic function of the inner product of row `j 0`
    of the first block and row `j 1` of the second. -/
theorem pay_apply (x0 x1 : Vec Ideal S1024x128 .f32) (j : S1024x1024.Idx) :
    k0_pay1 (F := Ideal) x0 x1 j
      = Ideal.logistic (∑ k : Fin 128, x0 (rowB ⟨(j 0).val, (j 0).isLt⟩ k) * x1 (rowB ⟨(j 1).val, (j 1).isLt⟩ k)) := by
  unfold k0_pay1
  show Ideal.logistic (FloatOps.matmul dot_S1024x128_S1024x128_S1024x1024_1_1_0_0_n_n none
      (truncf .bf16 (shapeCast S1024x128 x0 shapeCasts_S1024x128_S1024x128) bitsLt_bf16_f32)
      (truncf .bf16 (shapeCast S1024x128 x1 shapeCasts_S1024x128_S1024x128) bitsLt_bf16_f32)
      (constant (F := Ideal) S1024x1024 .f32 0x00000000#32) j) = _
  rw [shapeCast_self, shapeCast_self]
  refine congrArg Ideal.logistic ?_
  refine Cert.LibContract.matmul_zero_entry dot_S1024x128_S1024x128_S1024x1024_1_1_0_0_n_n none 128 rfl rfl _ _ j
    (fun k => rowB ⟨(j 0).val, (j 0).isLt⟩ k) (fun k => rowB ⟨(j 1).val, (j 1).isLt⟩ k) (fun k => ?_) (fun k => ?_)
  · have hk := ValueIdx.contrEquiv1_symm_val dot_S1024x128_S1024x128_S1024x1024_1_1_0_0_n_n 128 rfl rfl k
    exact funext fun a => Fin.ext (by
      match a with
      | ⟨0, _⟩ => exact lhs_0 _ _
      | ⟨1, _⟩ => exact (lhs_1 _ _).trans hk)
  · have hk := ValueIdx.contrEquiv1_symm_val dot_S1024x128_S1024x128_S1024x1024_1_1_0_0_n_n 128 rfl rfl k
    exact funext fun a => Fin.ext (by
      match a with
      | ⟨0, _⟩ => exact rhs_0 _ _
      | ⟨1, _⟩ => exact (rhs_1 _ _).trans hk)

/-! ## From tiles to the array -/

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the first reading window follows the tile's row index, the second its
    column index, and neither moves along the 128 columns of the embedding; both tile indices stay below 8. -/
theorem idx_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7 ∧ win0_2.index t (1 : Fin 2) ≤ 7 :=
  (by decide +kernel : ∀ t : Fin grid0.N, _)

/-- Every tile is some point's. -/
theorem idx_onto : ∀ (q0 : Fin 8) (q1 : Fin 8), ∃ t : Fin cfg0.N, win0_2.index t = ![q0.val, q1.val] :=
  (by decide +kernel : ∀ (q0 : Fin 8) (q1 : Fin 8), ∃ t : Fin grid0.N, win0_2.index t = ![q0.val, q1.val])

/-- A block read at a local position is the array read at the block's offset plus the position. -/
theorem iblk0_apply (c : Dev nD) (t : Fin cfg0.N) (y : S1024x128.Idx) :
    iblk m c 0 t y = V m c main_v177 (((cfg0.win 0).blk t).view.emb y) := rfl
theorem iblk1_apply (c : Dev nD) (t : Fin cfg0.N) (y : S1024x128.Idx) :
    iblk m c 1 t y = V m c main_v177 (((cfg0.win 1).blk t).view.emb y) := rfl

/-- What point `t` writes back is tile `t` of `adj` of the embedding as the kernel finds it: entry `j` of the tile is
    the logistic function of the inner product of row `j 0` of the first block and row `j 1` of the second, and
    those are rows 1024·i + j 0 and 1024·i' + j 1 of the embedding, (i, i') the tile's index. -/
theorem flushed_eq (c : Dev nD) (t : Fin cfg0.N) :
    (dats m 0 c).flushed 2 t = ((cfg0.win 2).blk t).view.read (Elt Ideal) (adj (V m c main_v177)) := by
  show (cfg0.win 2).cut (grid0.coords t) ((dats m 0 c).after 2 t) = _
  rw [after0_2]
  unfold out0_2
  rw [View.canon_unit_zero hz]
  simp only [View.ld_unit_zero (S := S1024x128) hz]
  obtain ⟨e0, e1, e2, e3, e4, e5⟩ := idx_facts t
  funext j
  rw [View.read_apply, cast_eq]
  unfold Pipeline.Window.cut
  rw [pay_apply]
  unfold Cert.Decode.adj
  refine congrArg Ideal.logistic (Finset.sum_congr rfl fun k _ => ?_)
  rw [iblk0_apply, iblk1_apply]
  refine congrArg₂ (· * ·) (congrArg (V m c main_v177) ?_) (congrArg (V m c main_v177) ?_)
  · funext a; apply Fin.ext
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 128 + 1 * k.val = k.val; omega
  · funext a; apply Fin.ext
    match a with
    | ⟨0, _⟩ => show win0_1.index t (0 : Fin 2) * 1024 + 1 * (j 1).val = win0_2.index t (1 : Fin 2) * 1024 + 1 * (j 1).val; omega
    | ⟨1, _⟩ => show win0_1.index t (1 : Fin 2) * 128 + 1 * k.val = k.val; omega

/-- An index of the result is in point `t`'s tile iff each coordinate is in the tile's range on its axis. -/
theorem mem_blk (t : Fin cfg0.N) (i : S8192x8192.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v178).slice (win0_2.rect t)).set ↔ _
  rw [View.set_slice_whole, Rect.mem_set_unit]
  exact Iff.rfl

/-- The tiles cover the result: entry (r, c) is in the tile (r / 1024, c / 1024). -/
theorem covered (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- After the run the result array is `adj` of the embedding the kernel was handed. -/
theorem final (c : Dev nD) : (dats m 0 c).arrAt 2 cfg0.N = adj (V m c main_v177) :=
  (dats m 0 c).arrAt_eq_of_cover 2 (adj (V m c main_v177)) (fun t _ => flushed_eq m c t) covered

end Cert.KernelIdeal.Hand

end
-- ==== Proof.RefImports.lean ====
/-
  The reference program's run and its read-at-an-index lemmas, gathered in one place for the modules that
  compare the reference's results with the kernel's.
-/
import proofs.«109616_j8753143349903_1_alg».proof.Proof.Gen.ReferenceIdeal.Run
import proofs.«109616_j8753143349903_1_alg».proof.Proof.Gen.ReferenceIdeal.Read
-- ==== Proof.HostV74.lean ====
/-
  What the kernel's host operations leave in buffer %74 is the reference's stage %74 of the same arguments: the
  two programs run the same graph-convolution layers, operation for operation, up to the kernel call.
-/
import proofs.«109616_j8753143349903_1_alg».proof.Proof.KIdealHost
import proofs.«109616_j8753143349903_1_alg».proof.Proof.RefImports

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

set_option maxHeartbeats 40000000 in
theorem V_v74 (c : Dev nD) :
    V m c main_v74 = Cert.ReferenceIdeal.Read.val_main_v74 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  show StableHlo.after (hostAll (F := F)).flatten (fun b => m (c, b)) (Proc.devRef .tc main_v74) = _
  simp only [hostAll, hostOps0, hostOps0_1, hostOps0_2, hostOps0_3, hostOps0_4, hostOps0_5, hostOps0_6, hostOps0_7,
    hostOps0_8, hostOps0_9, hostOps0_10, List.flatten_cons, List.flatten_nil, List.append_nil, List.cons_append,
    List.nil_append]
  after_results_simp <;> rfl

end Cert.KernelIdeal.Hand

end
-- ==== Proof.HostV136.lean ====
/-
  What the kernel's host operations leave in buffer %136 is the reference's stage %136 of the same arguments: the
  two programs run the same graph-convolution layers, operation for operation, up to the kernel call.
-/
import proofs.«109616_j8753143349903_1_alg».proof.Proof.KIdealHost
import proofs.«109616_j8753143349903_1_alg».proof.Proof.RefImports

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

set_option maxHeartbeats 40000000 in
theorem V_v136 (c : Dev nD) :
    V m c main_v136 = Cert.ReferenceIdeal.Read.val_main_v136 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  show StableHlo.after (hostAll (F := F)).flatten (fun b => m (c, b)) (Proc.devRef .tc main_v136) = _
  simp only [hostAll, hostOps0, hostOps0_1, hostOps0_2, hostOps0_3, hostOps0_4, hostOps0_5, hostOps0_6, hostOps0_7,
    hostOps0_8, hostOps0_9, hostOps0_10, List.flatten_cons, List.flatten_nil, List.append_nil, List.cons_append,
    List.nil_append]
  after_results_simp <;> rfl

end Cert.KernelIdeal.Hand

end
-- ==== Proof.HostV177.lean ====
/-
  What the kernel's host operations leave in buffer %177 is the reference's stage %177 of the same arguments: the
  two programs run the same graph-convolution layers, operation for operation, up to the kernel call.
-/
import proofs.«109616_j8753143349903_1_alg».proof.Proof.KIdealHost
import proofs.«109616_j8753143349903_1_alg».proof.Proof.RefImports

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

set_option maxHeartbeats 40000000 in
theorem V_v177 (c : Dev nD) :
    V m c main_v177 = Cert.ReferenceIdeal.Read.val_main_v177 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg15)) (m ((c.tc : Thread nD τ).loc main_arg16)) (m ((c.tc : Thread nD τ).loc main_arg17)) (m ((c.tc : Thread nD τ).loc main_arg18)) := by
  show StableHlo.after (hostAll (F := F)).flatten (fun b => m (c, b)) (Proc.devRef .tc main_v177) = _
  simp only [hostAll, hostOps0, hostOps0_1, hostOps0_2, hostOps0_3, hostOps0_4, hostOps0_5, hostOps0_6, hostOps0_7,
    hostOps0_8, hostOps0_9, hostOps0_10, List.flatten_cons, List.flatten_nil, List.append_nil, List.cons_append,
    List.nil_append]
  after_results_simp <;> rfl

end Cert.KernelIdeal.Hand

end
-- ==== Proof.LibExtReal.lean ====
/-
  Small general facts about float values read as extended reals.

  The words of the float one and of plus infinity denote `1` and `⊤`. A quotient by a nonzero REAL divisor is the
  product with one over the divisor, whatever the dividend (infinities included); at a zero divisor the two differ
  (`0 / 0` against `0 · (1 / 0)`), so the hypothesis is needed. A finite sum of reals read in the extended reals is the
  sum of the readings. An extended real whose absolute value `max x (-x)` is below `⊤` is a real. A comparison word
  that is one says its relation holds (less-than; not-equal).
-/
import Idealize.ShloMosaic.PureOps.Ideal.Laws

noncomputable section

namespace Cert.LibExtReal

open Idealize.ShloMosaic

/-- The word of the float one denotes the real one. -/
theorem ofBits_one : Ideal.ofBits .f32 0x3F800000#32 = 1 := by
  simp [Ideal.ofBits, Ideal.ieee, -EReal.coe_mul]; norm_num

/-- The word of plus infinity denotes the top element. -/
theorem ofBits_inf : Ideal.ofBits .f32 0x7F800000#32 = ⊤ := by simp [Ideal.ofBits, Ideal.ieee]

/-- A quotient by a nonzero real is the product with one over it. -/
theorem div_eq_mul_recip (a d : EReal) (y : ℝ) (hy : y ≠ 0) (hd : d = (y : EReal)) :
    Ideal.div a d = a * Ideal.div (Ideal.ofBits .f32 0x3F800000#32) d := by
  subst hd
  rw [Ideal.div_coe hy, Ideal.div_coe hy, ofBits_one, one_mul]

/-- A finite sum of reals, read in the extended reals, is the sum of the readings. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real whose absolute value is below the top element is a real. -/
theorem real_of_abs_lt_top (x : EReal) (h : max x (-x) < ⊤) : ∃ y : ℝ, x = (y : EReal) := by
  induction x using EReal.rec with
  | bot => simp at h
  | coe y => exact ⟨y, rfl⟩
  | top => simp at h

/-- A less-than comparison word that is one: the left value is below the right. -/
theorem lt_of_cmp_olt {x y : EReal} (h : Ideal.cmp .olt x y = 1#1) : x < y := by
  unfold Ideal.cmp at h
  by_contra hn
  simp [hn] at h

/-- A not-equal comparison word that is one: the two values differ. -/
theorem ne_of_cmp_une {x y : EReal} (h : Ideal.cmp .une x y = 1#1) : x ≠ y := by
  unfold Ideal.cmp at h
  intro hn
  simp [hn] at h

end Cert.LibExtReal

end
-- ==== Proof.RefDecode.lean ====
/-
  The reference's last result is the inner-product decode of its node embedding.

  The reference transposes the embedding `Z`, multiplies `Z · Zᵀ` (entry (r, c) is ∑ₖ Z(r, k) · Zᵀ(k, c), and
  Zᵀ(k, c) = Z(c, k)), negates, exponentiates, adds one and divides one by the sum: 1 / (1 + e⁻ˢ), which on the
  extended reals is the logistic function of s, the float word of 1.0 denoting the real one.
-/
import proofs.«109616_j8753143349903_1_alg».proof.Proof.RefImports
import proofs.«109616_j8753143349903_1_alg».proof.Proof.LibExtReal
import proofs.«109616_j8753143349903_1_alg».proof.Proof.DecodeSpec

set_option maxRecDepth 16384

noncomputable section

namespace Cert.ReferenceIdeal.Decode

open Cert.ReferenceIdeal Cert.ReferenceIdeal.Gen Cert.ReferenceIdeal.Read Idealize.ShloMosaic Idealize.ShloMosaic.TcCoe Idealize.SL.Sem
open Cert.Decode (rowZ adj)

/-- The left factor's position: row `r` of the embedding, column `k`. -/
theorem lidx_eq (i : S8192x8192.Idx) (k : Fin 128) : lidx_main_v179 i k = rowZ ⟨(i 0).val, (i 0).isLt⟩ k :=
  funext fun a => by match a with | ⟨0, _⟩ => rfl | ⟨1, _⟩ => rfl

/-- The right factor's position in the transposed embedding is row `c` of the embedding, column `k`. -/
theorem ridx_eq (i : S8192x8192.Idx) (k : Fin 128) : idx_main_v178 (ridx_main_v179 i k) = rowZ ⟨(i 1).val, (i 1).isLt⟩ k :=
  funext fun a => by match a with | ⟨0, _⟩ => rfl | ⟨1, _⟩ => rfl

/-- The reference's adjacency stage is the decode of its embedding stage, entry by entry. -/
theorem decode_apply (x0 : (⟨S8192x128, .f32⟩ : BufTy).Contents (Elt Ideal)) (x1 x2 : (⟨S262144, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x64, .f32⟩ : BufTy).Contents (Elt Ideal)) (x8 : (⟨S64, .f32⟩ : BufTy).Contents (Elt Ideal)) (x15 : (⟨S64x128, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal)) (i : S8192x8192.Idx) :
    val_main_v185 (F := Ideal) x0 x1 x2 x3 x4 x5 x6 x7 x8 x15 x16 x17 x18 i = adj (val_main_v177 (F := Ideal) x0 x1 x2 x3 x4 x5 x6 x7 x8 x15 x16 x17 x18) i := by
  rw [val_main_v185_apply, val_main_v184_apply, val_main_cst_28_apply, val_main_v183_apply, val_main_v182_apply,
    val_main_cst_27_apply, val_main_v181_apply, val_main_v180_apply, val_main_v179_apply]
  simp only [val_main_v178_apply, lidx_eq, ridx_eq]
  generalize val_main_v177 (F := Ideal) x0 x1 x2 x3 x4 x5 x6 x7 x8 x15 x16 x17 x18 = Z
  unfold Cert.Decode.adj
  show Ideal.div (Ideal.ofBits .f32 0x3F800000#32) (Ideal.ofBits .f32 0x3F800000#32 + Ideal.exp (-_)) = Ideal.div 1 (1 + Ideal.exp (-_))
  rw [Cert.LibExtReal.ofBits_one]

/-- The reference's adjacency stage is the decode of its embedding stage. -/
theorem decode_eq (x0 : (⟨S8192x128, .f32⟩ : BufTy).Contents (Elt Ideal)) (x1 x2 : (⟨S262144, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x64, .f32⟩ : BufTy).Contents (Elt Ideal)) (x8 : (⟨S64, .f32⟩ : BufTy).Contents (Elt Ideal)) (x15 : (⟨S64x128, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal)) :
    val_main_v185 (F := Ideal) x0 x1 x2 x3 x4 x5 x6 x7 x8 x15 x16 x17 x18 = adj (val_main_v177 (F := Ideal) x0 x1 x2 x3 x4 x5 x6 x7 x8 x15 x16 x17 x18) :=
  funext fun i => decode_apply x0 x1 x2 x3 x4 x5 x6 x7 x8 x15 x16 x17 x18 i

end Cert.ReferenceIdeal.Decode

end
-- ==== Proof.lean ====
/-
  The five claims for the graph auto-encoder with a tiled inner-product decode.

  Both programs run the same graph-convolution layers on the host and return the latent `z`, the reconstruction
  and the decoded adjacency σ(z' · z'ᵀ) of the structure decoder's embedding z'. The reference computes the
  adjacency on the host (transpose, product, 1 / (1 + e⁻ˢ)); the kernel computes it in 8 × 8 tiles of
  1024 × 1024, each the logistic function of a 1024 × 128 by 128 × 1024 product of row blocks of z'. On the
  extended reals the change of float format before the product is the identity, so the two are one function of z'
  (`Cert.Decode.adj`), and z' itself, `z` and the reconstruction are computed by the same host operations.
  No finiteness of the inputs is needed.

  The frames: the host operations fault nowhere and write no argument; the kernel call is launched with the
  embedding's share split between its two reading windows, its body run symbolically at a generic grid point.
-/
import proofs.«109616_j8753143349903_1_alg».proof.Defs
import proofs.«109616_j8753143349903_1_alg».proof.Proof.Gen.Kernel
import proofs.«109616_j8753143349903_1_alg».proof.Proof.Gen.KernelIdeal
import proofs.«109616_j8753143349903_1_alg».proof.Proof.Gen.ReferenceIdeal
import proofs.«109616_j8753143349903_1_alg».proof.Proof.Gen.Pre_finite_inputs
import proofs.«109616_j8753143349903_1_alg».proof.Proof.KBitsLaunch
import proofs.«109616_j8753143349903_1_alg».proof.Proof.KIdealLaunch
import proofs.«109616_j8753143349903_1_alg».proof.Proof.KIdealValue
import proofs.«109616_j8753143349903_1_alg».proof.Proof.HostV74
import proofs.«109616_j8753143349903_1_alg».proof.Proof.HostV136
import proofs.«109616_j8753143349903_1_alg».proof.Proof.HostV177
import proofs.«109616_j8753143349903_1_alg».proof.Proof.RefDecode
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs to the end and leaves its nineteen arguments unchanged. -/
theorem frame_k : Cert.frame_Kernel (hKernel := Cert.Kernel.Gen.facts) (hPre_finite_inputs := Cert.Pre_finite_inputs.Gen.facts) :=
  fun m ρ _ => (θ_run Cert.Kernel.defs _ _).mono (fun _ h c =>
    ⟨Cert.Kernel.Hand.arg_kept m h c Cert.Kernel.main_arg0 (by decide) (by decide) (by decide),
      Cert.Kernel.Hand.arg_kept m h c Cert.Kernel.main_arg1 (by decide) (by decide) (by decide),
      Cert.Kernel.Hand.arg_kept m h c Cert.Kernel.main_arg2 (by decide) (by decide) (by decide),
      Cert.Kernel.Hand.arg_kept m h c Cert.Kernel.main_arg3 (by decide) (by decide) (by decide),
      Cert.Kernel.Hand.arg_kept m h c Cert.Kernel.main_arg4 (by decide) (by decide) (by decide),
      Cert.Kernel.Hand.arg_kept m h c Cert.Kernel.main_arg5 (by decide) (by decide) (by decide),
      Cert.Kernel.Hand.arg_kept m h c Cert.Kernel.main_arg6 (by decide) (by decide) (by decide),
      Cert.Kernel.Hand.arg_kept m h c Cert.Kernel.main_arg7 (by decide) (by decide) (by decide),
      Cert.Kernel.Hand.arg_kept m h c Cert.Kernel.main_arg8 (by decide) (by decide) (by decide),
      Cert.Kernel.Hand.arg_kept m h c Cert.Kernel.main_arg9 (by decide) (by decide) (by decide),
      Cert.Kernel.Hand.arg_kept m h c Cert.Kernel.main_arg10 (by decide) (by decide) (by decide),
      Cert.Kernel.Hand.arg_kept m h c Cert.Kernel.main_arg11 (by decide) (by decide) (by decide),
      Cert.Kernel.Hand.arg_kept m h c Cert.Kernel.main_arg12 (by decide) (by decide) (by decide),
      Cert.Kernel.Hand.arg_kept m h c Cert.Kernel.main_arg13 (by decide) (by decide) (by decide),
      Cert.Kernel.Hand.arg_kept m h c Cert.Kernel.main_arg14 (by decide) (by decide) (by decide),
      Cert.Kernel.Hand.arg_kept m h c Cert.Kernel.main_arg15 (by decide) (by decide) (by decide),
      Cert.Kernel.Hand.arg_kept m h c Cert.Kernel.main_arg16 (by decide) (by decide) (by decide),
      Cert.Kernel.Hand.arg_kept m h c Cert.Kernel.main_arg17 (by decide) (by decide) (by decide),
      Cert.Kernel.Hand.arg_kept m h c Cert.Kernel.main_arg18 (by decide) (by decide) (by decide)⟩)
    (Cert.Kernel.Hand.run_main (F := Bits) m ρ)

/-- So does its reading on the extended reals. -/
theorem frame_ki : Cert.frame_KernelIdeal (hKernelIdeal := Cert.KernelIdeal.Gen.facts) (hPre_finite_inputs := Cert.Pre_finite_inputs.Gen.facts) :=
  fun m ρ _ => (θ_run Cert.KernelIdeal.defs _ _).mono (fun _ h c =>
    ⟨Cert.KernelIdeal.Hand.arg_kept m h c Cert.KernelIdeal.main_arg0 (by decide) (by decide) (by decide),
      Cert.KernelIdeal.Hand.arg_kept m h c Cert.KernelIdeal.main_arg1 (by decide) (by decide) (by decide),
      Cert.KernelIdeal.Hand.arg_kept m h c Cert.KernelIdeal.main_arg2 (by decide) (by decide) (by decide),
      Cert.KernelIdeal.Hand.arg_kept m h c Cert.KernelIdeal.main_arg3 (by decide) (by decide) (by decide),
      Cert.KernelIdeal.Hand.arg_kept m h c Cert.KernelIdeal.main_arg4 (by decide) (by decide) (by decide),
      Cert.KernelIdeal.Hand.arg_kept m h c Cert.KernelIdeal.main_arg5 (by decide) (by decide) (by decide),
      Cert.KernelIdeal.Hand.arg_kept m h c Cert.KernelIdeal.main_arg6 (by decide) (by decide) (by decide),
      Cert.KernelIdeal.Hand.arg_kept m h c Cert.KernelIdeal.main_arg7 (by decide) (by decide) (by decide),
      Cert.KernelIdeal.Hand.arg_kept m h c Cert.KernelIdeal.main_arg8 (by decide) (by decide) (by decide),
      Cert.KernelIdeal.Hand.arg_kept m h c Cert.KernelIdeal.main_arg9 (by decide) (by decide) (by decide),
      Cert.KernelIdeal.Hand.arg_kept m h c Cert.KernelIdeal.main_arg10 (by decide) (by decide) (by decide),
      Cert.KernelIdeal.Hand.arg_kept m h c Cert.KernelIdeal.main_arg11 (by decide) (by decide) (by decide),
      Cert.KernelIdeal.Hand.arg_kept m h c Cert.KernelIdeal.main_arg12 (by decide) (by decide) (by decide),
      Cert.KernelIdeal.Hand.arg_kept m h c Cert.KernelIdeal.main_arg13 (by decide) (by decide) (by decide),
      Cert.KernelIdeal.Hand.arg_kept m h c Cert.KernelIdeal.main_arg14 (by decide) (by decide) (by decide),
      Cert.KernelIdeal.Hand.arg_kept m h c Cert.KernelIdeal.main_arg15 (by decide) (by decide) (by decide),
      Cert.KernelIdeal.Hand.arg_kept m h c Cert.KernelIdeal.main_arg16 (by decide) (by decide) (by decide),
      Cert.KernelIdeal.Hand.arg_kept m h c Cert.KernelIdeal.main_arg17 (by decide) (by decide) (by decide),
      Cert.KernelIdeal.Hand.arg_kept m h c Cert.KernelIdeal.main_arg18 (by decide) (by decide) (by decide)⟩)
    (Cert.KernelIdeal.Hand.run_main (F := Ideal) m ρ)

/-- The reference is host operations only: its run, with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2)
    (Cert.ReferenceIdeal.Value.run (F := Ideal) m ρ)

/-- From memories agreeing on the arguments both programs end with the same three results: the latent and the
    reconstruction as the shared host operations leave them, the adjacency the decode of the shared embedding. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.V m c Cert.KernelIdeal.main_v74,
    fun c => Cert.KernelIdeal.Hand.V m c Cert.KernelIdeal.main_v136,
    fun c => Cert.Decode.adj (Cert.KernelIdeal.Hand.V m c Cert.KernelIdeal.main_v177), ?_, ?_⟩
  · refine (θ_run Cert.KernelIdeal.defs _ _).mono (fun _ h c =>
      ⟨(h c).2 Cert.KernelIdeal.main_v74 (Pipeline.mem_restRefs_of Cert.KernelIdeal.main_v74 (by decide) (by decide)),
      (h c).2 Cert.KernelIdeal.main_v136 (Pipeline.mem_restRefs_of Cert.KernelIdeal.main_v136 (by decide) (by decide)),
      ((h c).1 2).trans (Cert.KernelIdeal.Hand.final m c),
      Cert.KernelIdeal.Hand.arg_kept m h c Cert.KernelIdeal.main_arg0 (by decide) (by decide) (by decide),
      Cert.KernelIdeal.Hand.arg_kept m h c Cert.KernelIdeal.main_arg1 (by decide) (by decide) (by decide),
      Cert.KernelIdeal.Hand.arg_kept m h c Cert.KernelIdeal.main_arg2 (by decide) (by decide) (by decide),
      Cert.KernelIdeal.Hand.arg_kept m h c Cert.KernelIdeal.main_arg3 (by decide) (by decide) (by decide),
      Cert.KernelIdeal.Hand.arg_kept m h c Cert.KernelIdeal.main_arg4 (by decide) (by decide) (by decide),
      Cert.KernelIdeal.Hand.arg_kept m h c Cert.KernelIdeal.main_arg5 (by decide) (by decide) (by decide),
      Cert.KernelIdeal.Hand.arg_kept m h c Cert.KernelIdeal.main_arg6 (by decide) (by decide) (by decide),
      Cert.KernelIdeal.Hand.arg_kept m h c Cert.KernelIdeal.main_arg7 (by decide) (by decide) (by decide),
      Cert.KernelIdeal.Hand.arg_kept m h c Cert.KernelIdeal.main_arg8 (by decide) (by decide) (by decide),
      Cert.KernelIdeal.Hand.arg_kept m h c Cert.KernelIdeal.main_arg9 (by decide) (by decide) (by decide),
      Cert.KernelIdeal.Hand.arg_kept m h c Cert.KernelIdeal.main_arg10 (by decide) (by decide) (by decide),
      Cert.KernelIdeal.Hand.arg_kept m h c Cert.KernelIdeal.main_arg11 (by decide) (by decide) (by decide),
      Cert.KernelIdeal.Hand.arg_kept m h c Cert.KernelIdeal.main_arg12 (by decide) (by decide) (by decide),
      Cert.KernelIdeal.Hand.arg_kept m h c Cert.KernelIdeal.main_arg13 (by decide) (by decide) (by decide),
      Cert.KernelIdeal.Hand.arg_kept m h c Cert.KernelIdeal.main_arg14 (by decide) (by decide) (by decide),
      Cert.KernelIdeal.Hand.arg_kept m h c Cert.KernelIdeal.main_arg15 (by decide) (by decide) (by decide),
      Cert.KernelIdeal.Hand.arg_kept m h c Cert.KernelIdeal.main_arg16 (by decide) (by decide) (by decide),
      Cert.KernelIdeal.Hand.arg_kept m h c Cert.KernelIdeal.main_arg17 (by decide) (by decide) (by decide),
      Cert.KernelIdeal.Hand.arg_kept m h c Cert.KernelIdeal.main_arg18 (by decide) (by decide) (by decide)⟩)
      (Cert.KernelIdeal.Hand.run_main (F := Ideal) m ρ)
  · refine (θ_run Cert.ReferenceIdeal.defs _ _).mono (fun _ h c => ⟨?_, ?_, ?_, (h c).2.2.2⟩)
      (Cert.ReferenceIdeal.Value.run (F := Ideal) m' ρ')
    all_goals obtain ⟨g0, g1, g2, g3, g4, g5, g6, g7, g8, g9, g10, g11, g12, g13, g14, g15, g16, g17, g18⟩ := hagree c
    · refine (h c).1.trans ((Cert.ReferenceIdeal.Read.val_main_v74_eq m' c).trans ?_)
      rw [g0, g1, g2, g3, g4, g5, g6, g7, g8]
      exact (Cert.KernelIdeal.Hand.V_v74 m c).symm
    · refine (h c).2.1.trans ((Cert.ReferenceIdeal.Read.val_main_v136_eq m' c).trans ?_)
      rw [g0, g1, g2, g3, g4, g5, g6, g7, g8, g9, g10, g11, g12, g13, g14]
      exact (Cert.KernelIdeal.Hand.V_v136 m c).symm
    · refine (h c).2.2.1.trans ((Cert.ReferenceIdeal.Read.val_main_v185_eq m' c).trans ?_)
      rw [g0, g1, g2, g3, g4, g5, g6, g7, g8, g15, g16, g17, g18, Cert.ReferenceIdeal.Decode.decode_eq]
      exact congrArg Cert.Decode.adj (Cert.KernelIdeal.Hand.V_v177 m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
